-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S4096x4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1x512 : Shape := ⟨2, ![1, 512]⟩
abbrev S512x1024 : Shape := ⟨2, ![512, 1024]⟩
abbrev S2048x1024 : Shape := ⟨2, ![2048, 1024]⟩
abbrev S8192x4096 : Shape := ⟨2, ![8192, 4096]⟩
abbrev S1024x512 : Shape := ⟨2, ![1024, 512]⟩
abbrev S1x2048 : Shape := ⟨2, ![1, 2048]⟩
abbrev S1024x2048 : Shape := ⟨2, ![1024, 2048]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .bf16⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S1024x512, .f32⟩
  | .local _ .vmem, ⟨10, _⟩ => ⟨S1024x512, .f32⟩
  | .local _ .vmem, ⟨11, _⟩ => ⟨S2048x512, .bf16⟩
  | .local _ .vmem, ⟨12, _⟩ => ⟨S2048x512, .bf16⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  packedbf16_S2048x1024_S2048x1024_0_0 : (Rect.unit (s := S2048x1024) ![0, 0] S2048x1024.size inb_S2048x1024_S2048x1024_0_0).PackedRows (EltTy.packing .bf16)
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S2048x512_S512x1024_S2048x1024_1_0_0_1_n_n_wf : DotDims.WF S2048x512 S512x1024 S2048x1024 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .bf16 = 32 ∨ (Rect.block (s := S4096x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KB.W0.lean ====
/-
  The first kernel (the weight matrix): the two conditions its body branches on, decided at every grid point; where its
  output window is left untouched; the memory it is handed.

  The grid is 2 × 4 × 8, its last axis the eight blocks of 512 columns an entry of the weight is summed over. The body
  clears its accumulator at the first block (last coordinate 0), adds one block's product at every point, and stores the
  accumulator into the output block at the last block (last coordinate 7). Points are visited in row-major order, so a
  point's last coordinate is its number modulo 8.
-/
import proofs.«140466_j11252814316068_2_alg».proof.Proof.Gen.Kernel.Launch
import proofs.«140466_j11252814316068_2_alg».proof.Proof.Gen.Kernel.Skeleton
import proofs.«140466_j11252814316068_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the kernel's region is entered: everything about the region is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched window's
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first block of columns": the last grid coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last block of columns": the last grid coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are untouched -/

/-- The three input windows are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last block the body stores nothing into the output window, and the block is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last block the body stores the output window whole. -/
theorem liveAt0_3 : ∀ t : Fin cfg0.N, cond0_1 (grid0.coords t) → cfg0.idle 3 (grid0.coords t) = false := by decide +kernel

/-! ## The memory the body is handed -/

/-- One staging buffer of the output window, through which its contents are stated (which one does not matter). -/
abbrev VO0_3 : View sig .tc .vmem S2048x1024 .bf16 := (Memref.whole cc0_stg3_0 : Memref sig .tc .vmem S2048x1024 .bf16).view
/-- Each window's current staging buffer at point `t`, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole buffer of the kernel's own, carried from point to point. -/
abbrev scM0 : Memref sig .tc .vmem S2048x1024 .f32 := Memref.whole cc0_scratch0
abbrev VS0 : View sig .tc .vmem S2048x1024 .f32 := scM0.view

/-- The other kernel's staging buffers and accumulator, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body besides the windows: the accumulator at some contents, the other kernel's buffers, and
    the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Fr

end
-- ==== Proof.KB.W0A.lean ====
/-
  The first kernel's body at a point of the FIRST column block: the accumulator, whatever it held, is cleared and then
  receives the block's product; the output window is left as it was.
-/
import proofs.«140466_j11252814316068_2_alg».proof.Proof.KB.W0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator (last first), with the proof that from whole staging buffers — the
    inputs at their contents, the output window at contents handed back untouched, the accumulator at anything — the body
    runs to the continuation holding the inputs as they were and the accumulator with those pieces written. -/
noncomputable def kernelRun0_A (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1x512 .f32) (x2 : Vec F S512x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__w_kernel i arg3 harg3 arg4 harg4 arg5 harg5 arg6 harg6 arg7 harg7) K } := by
  refine ⟨[], ?_, fun xi3 E K => ?run⟩
  case run =>
    simp only [cc0__w_kernel_eq_skeleton]; unfold cc0__w_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KB.W0B.lean ====
/-
  The first kernel's body at a point of a MIDDLE column block: the accumulator, at what the point before left, receives
  the block's product; the output window is left as it was.
-/
import proofs.«140466_j11252814316068_2_alg».proof.Proof.KB.W0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator, with the proof that from whole staging buffers — the inputs at
    their contents, the output window at contents handed back untouched, the accumulator at `xs0` — the body runs to the
    continuation holding the inputs as they were and the accumulator with those pieces written. -/
noncomputable def kernelRun0_B (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1x512 .f32) (x2 : Vec F S512x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__w_kernel i arg3 harg3 arg4 harg4 arg5 harg5 arg6 harg6 arg7 harg7) K } := by
  refine ⟨[], ?_, fun xi3 E K => ?run⟩
  case run =>
    simp only [cc0__w_kernel_eq_skeleton]; unfold cc0__w_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KB.W0C.lean ====
/-
  The first kernel's body at a point of the LAST column block: the accumulator, at what the point before left, receives
  the block's product, and the finished accumulator is stored into the output window.
-/
import proofs.«140466_j11252814316068_2_alg».proof.Proof.KB.W0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output window and in the accumulator, with the proof that from whole staging
    buffers — the inputs at their contents, the output window at anything, the accumulator at `xs0` — the body runs to the
    continuation holding the inputs as they were and the two buffers with their pieces written. -/
noncomputable def kernelRun0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1x512 .f32) (x2 : Vec F S512x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__w_kernel i arg3 harg3 arg4 harg4 arg5 harg5 arg6 harg6 arg7 harg7) K } := by
  refine ⟨?_, ?_, fun E K => ?run⟩
  case run =>
    simp only [cc0__w_kernel_eq_skeleton]; unfold cc0__w_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.W0F.lean ====
/-
  The first kernel, point by point: what its accumulator holds after each grid point and what it stores into the output
  window at the last column block; the invariant that carries the accumulator from one point to the next; the proof data
  of the pipeline; and the body's obligation at every point.

  After a point of the first column block the accumulator holds that block's product alone (it was cleared first);
  after any later point it holds what the point before left plus the point's product; at the last block the output
  window receives the accumulator. Before the first point, and again after the last, the accumulator's contents are not
  named.
-/
import proofs.«140466_j11252814316068_2_alg».proof.Proof.KB.W0A
import proofs.«140466_j11252814316068_2_alg».proof.Proof.KB.W0B
import proofs.«140466_j11252814316068_2_alg».proof.Proof.KB.W0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first block's stores cover the accumulator. -/
theorem scover0_A (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512 .f32) (x2 : Vec F S512x1024 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y
/-- What the first block leaves in the accumulator. -/
def sout0_A (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512 .f32) (x2 : Vec F S512x1024 .f32) : Vec F S2048x1024 .f32 :=
  VS0.read (Elt F) (VS0.writes (Elt F) VS0.junk (kernelRun0_A c i arg3 harg3 arg4 harg4 arg5 harg5 arg6 harg6 arg7 harg7 hc0 hc1 x0 x1 x2).2.1)

/-- A middle block's stores cover the accumulator. -/
theorem scover0_B (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512 .f32) (x2 : Vec F S512x1024 .f32) (xs0 : Vec F S2048x1024 .f32) (y : S2048x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S2048x1024.size (by sl_kernel_rfl) y
/-- What a middle block leaves in the accumulator. -/
def sout0_B (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512 .f32) (x2 : Vec F S512x1024 .f32) (xs0 : Vec F S2048x1024 .f32) : Vec F S2048x1024 .f32 :=
  VS0.read (Elt F) (VS0.writes (Elt F) VS0.junk (kernelRun0_B c i arg3 harg3 arg4 harg4 arg5 harg5 arg6 harg6 arg7 harg7 hc0 hc1 x0 x1 x2 xs0).2.1)

/-- The last block's stores cover the accumulator, -/
theorem scover0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S2048x1024.size (by sl_kernel_rfl) y
/-- and the output window. -/
theorem cover0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S2048x1024.size (by sl_kernel_rfl) y
/-- What the last block leaves in the accumulator, -/
def sout0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) : Vec F S2048x1024 .f32 :=
  VS0.read (Elt F) (VS0.writes (Elt F) VS0.junk (kernelRun0_C c i arg3 harg3 arg4 harg4 arg5 harg5 arg6 harg6 arg7 harg7 hc0 hc1 x0 x1 x2 xs0).2.1)
/-- and in the output window. -/
def out0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) : Vec F S2048x1024 .bf16 :=
  VO0_3.read (Elt F) (VO0_3.writes (Elt F) VO0_3.junk (kernelRun0_C c i arg3 harg3 arg4 harg4 arg5 harg5 arg6 harg6 arg7 harg7 hc0 hc1 x0 x1 x2 xs0).1)

/-! ## The accumulator and the output, point by point -/

/-- THE ACCUMULATOR after the body at position `n`: the first block's contents at a point ≡ 0 (mod 8), otherwise the
    point's case run over what position `n - 1` left. -/
def acc0 (c : Dev nD) : (n : ℕ) → n < cfg0.N → Vec F S2048x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 8 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 8 = 7 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (acc0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (acc0 c n (Nat.lt_of_succ_lt hn))

/-- At a point of the first block. -/
theorem acc0_A (c : Dev nD) (t : Fin cfg0.N) (h0 : t.val % 8 = 0) (h1 : ¬t.val % 8 = 7) :
    acc0 V c t.val t.isLt = sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans rfl

/-- At a point of a middle block. -/
theorem acc0_B (c : Dev nD) (t : Fin cfg0.N) (h0 : ¬t.val % 8 = 0) (h1 : ¬t.val % 8 = 7) :
    acc0 V c t.val t.isLt = sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point of the last block. -/
theorem acc0_C (c : Dev nD) (t : Fin cfg0.N) (h0 : ¬t.val % 8 = 0) (h1 : t.val % 8 = 7) :
    acc0 V c t.val t.isLt = sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- THE OUTPUT WINDOW's staging buffer after the body at point `t`: at the last block the stored accumulator; elsewhere the
    window is untouched and not written back, and this value is never consulted. -/
def outW0 (c : Dev nD) (t : Fin cfg0.N) : Vec F S2048x1024 .bf16 :=
  if h1 : t.val % 8 = 7 then
    out0_C c (grid0.coords t) (ms0_0 t) (hs0_0 t) (ms0_1 t) (hs0_1 t) (ms0_2 t) (hs0_2 t) (ms0_3 t) (hs0_3 t) scM0 (Memref.isWhole_whole _) (fun h => (fun h => by omega) ((hcond0_0 t).mp h)) ((hcond0_1 t).mpr h1) (iblk0 V c 0 t) (iblk0 V c 1 t) (iblk0 V c 2 t) (acc0 V c (t.val - 1) (Nat.lt_of_le_of_lt (Nat.sub_le _ _) t.isLt))
  else VO0_3.read (Elt F) VO0_3.junk

theorem outW0_C (c : Dev nD) (t : Fin cfg0.N) (h0 : ¬t.val % 8 = 0) (h1 : t.val % 8 = 7) :
    outW0 V c t = out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (acc0 V c (t.val - 1) (Nat.lt_of_le_of_lt (Nat.sub_le _ _) t.isLt)) :=
  (dif_pos h1).trans rfl

/-! ## The invariant -/

/-- Before position `n`: at the start what the region hands the body (the accumulator at anything); afterwards the
    accumulator at what the point before left, the other kernel's buffers, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The arrays as the region finds them; after the body each input's buffer at its block, the output's at `outW0`; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outW0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outW0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's number modulo 8 says which case it is in;
    the invariant hands the body the accumulator at what the point before left (at anything at a first block, where it is
    cleared before it is read) and takes it back at this point's contents; the output window is stored at the last block
    and handed back untouched elsewhere; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [acc0_A V c t h0 h1]
    unfold sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [acc0_C V c t h0 h1, outW0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [acc0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region hands the body is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives that back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.Kernel.Fr

end
-- ==== Proof.KB.Y1.lean ====
/-
  The second kernel (the result): the two conditions its body branches on, decided at every grid point; where its
  output window is left untouched; the memory it is handed.

  The grid is 8 × 2 × 8, its last axis the eight blocks of 512 columns an entry of the result is summed over. The body
  clears its accumulator at the first block (last coordinate 0), adds one block's product at every point, and at the last
  block (last coordinate 7) stores the accumulator plus the bias row into the output block. Points are visited in row-major
  order, so a point's last coordinate is its number modulo 8.
-/
import proofs.«140466_j11252814316068_2_alg».proof.Proof.Gen.Kernel.Launch
import proofs.«140466_j11252814316068_2_alg».proof.Proof.Gen.Kernel.Skeleton
import proofs.«140466_j11252814316068_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the kernel's region is entered: everything about the region is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched window's
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of columns": the last grid coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of columns": the last grid coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are untouched -/

/-- No input window is marked untouched: each is handed back holding its block at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the body stores nothing into the output window, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last block the body stores the output window whole. -/
theorem liveAt1_3 : ∀ t : Fin cfg1.N, cond1_1 (grid1.coords t) → cfg1.idle 3 (grid1.coords t) = false := by decide +kernel

/-! ## The memory the body is handed -/

/-- One staging buffer of the output window, through which its contents are stated (which one does not matter). -/
abbrev VO1_3 : View sig .tc .vmem S1024x2048 .f32 := (Memref.whole cc1_stg3_0 : Memref sig .tc .vmem S1024x2048 .f32).view
/-- Each window's current staging buffer at point `t`, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole buffer of the kernel's own, carried from point to point. -/
abbrev scM1 : Memref sig .tc .vmem S1024x2048 .f32 := Memref.whole cc1_scratch0
abbrev VS1 : View sig .tc .vmem S1024x2048 .f32 := scM1.view

/-- The other kernel's staging buffers and accumulator, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the region hands the body besides the windows: the accumulator at some contents, the other kernel's buffers, and
    the generator register at some state. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq]; simp only [scM1, owns_whole]
  -- the accumulator is the last of the ten buffers listed: bring it to the front
  refine BI.equiv_iff.mp ⟨?_, ?_⟩
  · show (_ : sProp 𝕄) ⊢ _
    iintro ⟨⟨H1, H2, H3, H4, H5, H6, H7, H8, H9, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  · show (_ : sProp 𝕄) ⊢ _
    iintro ⟨⟨HS, H1, H2, H3, H4, H5, H6, H7, H8, H9⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iexact Hg

end Cert.Kernel.Fr

end
-- ==== Proof.KB.Y1A.lean ====
/-
  The second kernel's body at a point of the FIRST column block: the accumulator, whatever it held, is cleared and then
  receives the block's product; the bias row is not read and the output window is left as it was.
-/
import proofs.«140466_j11252814316068_2_alg».proof.Proof.KB.Y1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator (last first), with the proof that from whole staging buffers — the
    inputs at their contents, the output window at contents handed back untouched, the accumulator at anything — the body
    runs to the continuation holding the inputs as they were and the accumulator with those pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__y_kernel i arg3 harg3 arg4 harg4 arg5 harg5 arg6 harg6 arg7 harg7) K } := by
  refine ⟨[], ?_, fun xi3 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KB.Y1B.lean ====
/-
  The second kernel's body at a point of a MIDDLE column block: the accumulator, at what the point before left, receives
  the block's product; the bias row is not read and the output window is left as it was.
-/
import proofs.«140466_j11252814316068_2_alg».proof.Proof.KB.Y1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator, with the proof that from whole staging buffers — the inputs at
    their contents, the output window at contents handed back untouched, the accumulator at `xs0` — the body runs to the
    continuation holding the inputs as they were and the accumulator with those pieces written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__y_kernel i arg3 harg3 arg4 harg4 arg5 harg5 arg6 harg6 arg7 harg7) K } := by
  refine ⟨[], ?_, fun xi3 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KB.Y1C.lean ====
/-
  The second kernel's body at a point of the LAST column block: the accumulator, at what the point before left, receives
  the block's product, and the finished accumulator plus the bias row is stored into the output window.
-/
import proofs.«140466_j11252814316068_2_alg».proof.Proof.KB.Y1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output window and in the accumulator, with the proof that from whole staging
    buffers — the inputs at their contents, the output window at anything, the accumulator at `xs0` — the body runs to the
    continuation holding the inputs as they were and the two buffers with their pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__y_kernel i arg3 harg3 arg4 harg4 arg5 harg5 arg6 harg6 arg7 harg7) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Y1F.lean ====
/-
  The second kernel, point by point: what its accumulator holds after each grid point and what it stores into the output
  window at the last column block; the invariant that carries the accumulator from one point to the next; the proof data
  of the pipeline; and the body's obligation at every point.

  After a point of the first column block the accumulator holds that block's product alone (it was cleared first);
  after any later point it holds what the point before left plus the point's product; at the last block the output
  window receives the accumulator plus the bias row. Before the first point, and again after the last, the accumulator's
  contents are not named.
-/
import proofs.«140466_j11252814316068_2_alg».proof.Proof.KB.Y1A
import proofs.«140466_j11252814316068_2_alg».proof.Proof.KB.Y1B
import proofs.«140466_j11252814316068_2_alg».proof.Proof.KB.Y1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first block's stores cover the accumulator. -/
theorem scover1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y
/-- What the first block leaves in the accumulator. -/
def sout1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).2.1)

/-- A middle block's stores cover the accumulator. -/
theorem scover1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y
/-- What a middle block leaves in the accumulator. -/
def sout1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).2.1)

/-- The last block's stores cover the accumulator, -/
theorem scover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
/-- and the output window. -/
theorem cover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
/-- What the last block leaves in the accumulator, -/
def sout1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)
/-- and in the output window. -/
def out1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-! ## The accumulator and the output, point by point -/

/-- THE ACCUMULATOR after the body at position `n`: the first block's contents at a point ≡ 0 (mod 8), otherwise the
    point's case run over what position `n - 1` left. -/
def acc1 (c : Dev nD) : (n : ℕ) → n < cfg1.N → Vec F S1024x2048 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 8 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 8 = 7 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (acc1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (acc1 c n (Nat.lt_of_succ_lt hn))

/-- At a point of the first block. -/
theorem acc1_A (c : Dev nD) (t : Fin cfg1.N) (h0 : t.val % 8 = 0) (h1 : ¬t.val % 8 = 7) :
    acc1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

/-- At a point of a middle block. -/
theorem acc1_B (c : Dev nD) (t : Fin cfg1.N) (h0 : ¬t.val % 8 = 0) (h1 : ¬t.val % 8 = 7) :
    acc1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point of the last block. -/
theorem acc1_C (c : Dev nD) (t : Fin cfg1.N) (h0 : ¬t.val % 8 = 0) (h1 : t.val % 8 = 7) :
    acc1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- THE OUTPUT WINDOW's staging buffer after the body at point `t`: at the last block the stored accumulator plus the bias row; elsewhere the
    window is untouched and not written back, and this value is never consulted. -/
def outW1 (c : Dev nD) (t : Fin cfg1.N) : Vec F S1024x2048 .f32 :=
  if h1 : t.val % 8 = 7 then
    out1_C c (grid1.coords t) (ms1_0 t) (hs1_0 t) (ms1_1 t) (hs1_1 t) (ms1_2 t) (hs1_2 t) (ms1_3 t) (hs1_3 t) scM1 (Memref.isWhole_whole _) (fun h => (fun h => by omega) ((hcond1_0 t).mp h)) ((hcond1_1 t).mpr h1) (iblk1 V c 0 t) (iblk1 V c 1 t) (iblk1 V c 2 t) (acc1 V c (t.val - 1) (Nat.lt_of_le_of_lt (Nat.sub_le _ _) t.isLt))
  else VO1_3.read (Elt F) VO1_3.junk

theorem outW1_C (c : Dev nD) (t : Fin cfg1.N) (h0 : ¬t.val % 8 = 0) (h1 : t.val % 8 = 7) :
    outW1 V c t = out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) :=
  (dif_pos h1).trans rfl

/-! ## The invariant -/

/-- Before position `n`: at the start what the region hands the body (the accumulator at anything); afterwards the
    accumulator at what the point before left, the other kernel's buffers, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The arrays as the region finds them; after the body each input's buffer at its block, the output's at `outW1`; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outW1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outW1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's number modulo 8 says which case it is in;
    the invariant hands the body the accumulator at what the point before left (at anything at a first block, where it is
    cleared before it is read) and takes it back at this point's contents; the output window is stored at the last block
    and handed back untouched elsewhere; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [acc1_A V c t h0 h1]
    unfold sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_C V c t h0 h1, outW1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [acc1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, Hoth⟩, Hg⟩
  isplitl [HS0 Hoth]
  · isplitl [HS0]
    · iexists _; iexact HS0
    iexact Hoth
  iexact Hg

end Cert.Kernel.Fr

end
-- ==== Proof.KB.Run.lean ====
/-
  The whole program: the two pallas_calls among three stretches of host operations, run from the launch to the return.

  The buffers' contents at each boundary are a fold from the launch memory: a host stretch applies its operations, a
  pallas_call leaves its arrays at what its write-backs produce and every other buffer as it was. Each pallas_call is a
  segment whose invariant carries its accumulator from grid point to grid point. The run's conclusion: every weakly fair
  execution terminates, nothing faults, and every unscoped buffer ends at the last boundary's contents.
-/
import proofs.«140466_j11252814316068_2_alg».proof.Proof.KB.W0F
import proofs.«140466_j11252814316068_2_alg».proof.Proof.KB.Y1F
import proofs.«140466_j11252814316068_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch (the scale row): the first pallas_call's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first pallas_call: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the two reshapes): the second pallas_call's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the second pallas_call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host stretch (the result's reshape): at the return. -/
abbrev B5 : Dev nD → Valuation τ sig (Elt F) := fun c => StableHlo.after hostOps2 (B4 m ρ c)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed. -/
abbrev Tₙ (c : Dev nD) : sProp 𝕄 := iprop(StableHlo.held (c : Thread nD τ) (Pipeline.ucRefs τ sig) (B5 m ρ c) ∗ ∃ r, prngReg c r)

/-! ## The pallas_calls as segments -/

set_option backward.isDefEq.respectTransparency.types false in
/-- Pallas call 0 as a segment: entered with every unscoped buffer at `B1`, left with them at `B2`. Its arrays are
    split out of the unscoped buffers and put back at what the write-backs leave; the generator register and the scoped
    buffers no window stages enter the invariant (the accumulator at anything) and come back out of it (the accumulator's
    last contents forgotten); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m ρ) c)
    unfold Pipeline.ΦA
    iintro ⟨Hp, -, Hr⟩
    isplitl [Hr]; · iexact Hr
    iexact Hp
  hout c := by
    rw [Pipeline.ownSems0_none]
    refine (hout0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `B3`, left with them at `B4`. Its arrays are
    split out of the unscoped buffers and put back at what the write-backs leave; the generator register and the scoped
    buffers no window stages enter the invariant (the accumulator at anything) and come back out of it (the accumulator's
    last contents forgotten); nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every unscoped buffer ends at the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.Kernel.Fr

end
-- ==== Proof.KB.Host.lean ====
/-
  The host stretches read at the buffers the assembly needs.

  No host operation and no pallas_call writes an argument array, so each ends at its launch contents. The first stretch
  leaves the scale row S + E as a 1 × 4096 array; the second reshapes x to 8192 × 4096 and the bias to 1 × 4096 and leaves
  the weight where the first pallas_call wrote it; the last reshapes the second pallas_call's result to 4 × 2048 × 4096.
-/
import proofs.«140466_j11252814316068_2_alg».proof.Proof.KB.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch leaves unchanged -/

theorem B1_of (c : Dev nD) (r : Ref sig .tc) (h : r ∉ hostOps0_W) : B1 m ρ c r = B0 m ρ c r :=
  StableHlo.after_of_writes_sub hostOps0 _ hostOps0_writes h
theorem B3_of (c : Dev nD) (r : Ref sig .tc) (h : r ∉ hostOps1_W) : B3 m ρ c r = B2 m ρ c r :=
  StableHlo.after_of_writes_sub hostOps1 _ hostOps1_writes h
theorem B5_of (c : Dev nD) (r : Ref sig .tc) (h : r ∉ hostOps2_W) : B5 m ρ c r = B4 m ρ c r :=
  StableHlo.after_of_writes_sub hostOps2 _ hostOps2_writes h

/-! ## The arguments end as launched

No host operation writes one; a pallas_call reads one through an input window, whose array it leaves as it found it,
or does not touch it at all. -/

/-- `main_arg0` ends as launched. -/
theorem B5_main_arg0 (c : Dev nD) : B5 m ρ c main_arg0 = m ((c : Thread nD τ).loc main_arg0) :=
  (B5_of m ρ c main_arg0 (by decide)).trans <| (B4_of_ne m ρ c main_arg0 (by decide)).trans <| (B3_of m ρ c main_arg0 (by decide)).trans <|
    (B2_of_ne m ρ c main_arg0 (by decide)).trans <| (B1_of m ρ c main_arg0 (by decide)).trans rfl
/-- `main_arg1` ends as launched. -/
theorem B5_main_arg1 (c : Dev nD) : B5 m ρ c main_arg1 = m ((c : Thread nD τ).loc main_arg1) :=
  (B5_of m ρ c main_arg1 (by decide)).trans <| (B4_of_ne m ρ c main_arg1 (by decide)).trans <| (B3_of m ρ c main_arg1 (by decide)).trans <|
    ((B2_arr m ρ c 0).trans (((dat0 (E1 m ρ) c).arrAt_in 0 rfl _).trans (A_eq0 (E1 m ρ) c 0))).trans <| (B1_of m ρ c main_arg1 (by decide)).trans rfl
/-- `main_arg2` ends as launched. -/
theorem B5_main_arg2 (c : Dev nD) : B5 m ρ c main_arg2 = m ((c : Thread nD τ).loc main_arg2) :=
  (B5_of m ρ c main_arg2 (by decide)).trans <| (B4_of_ne m ρ c main_arg2 (by decide)).trans <| (B3_of m ρ c main_arg2 (by decide)).trans <|
    (B2_of_ne m ρ c main_arg2 (by decide)).trans <| (B1_of m ρ c main_arg2 (by decide)).trans rfl
/-- `main_arg3` ends as launched. -/
theorem B5_main_arg3 (c : Dev nD) : B5 m ρ c main_arg3 = m ((c : Thread nD τ).loc main_arg3) :=
  (B5_of m ρ c main_arg3 (by decide)).trans <| (B4_of_ne m ρ c main_arg3 (by decide)).trans <| (B3_of m ρ c main_arg3 (by decide)).trans <|
    ((B2_arr m ρ c 2).trans (((dat0 (E1 m ρ) c).arrAt_in 2 rfl _).trans (A_eq0 (E1 m ρ) c 2))).trans <| (B1_of m ρ c main_arg3 (by decide)).trans rfl
/-- `main_arg4` ends as launched. -/
theorem B5_main_arg4 (c : Dev nD) : B5 m ρ c main_arg4 = m ((c : Thread nD τ).loc main_arg4) :=
  (B5_of m ρ c main_arg4 (by decide)).trans <| (B4_of_ne m ρ c main_arg4 (by decide)).trans <| (B3_of m ρ c main_arg4 (by decide)).trans <|
    (B2_of_ne m ρ c main_arg4 (by decide)).trans <| (B1_of m ρ c main_arg4 (by decide)).trans rfl
/-- `main_arg5` ends as launched. -/
theorem B5_main_arg5 (c : Dev nD) : B5 m ρ c main_arg5 = m ((c : Thread nD τ).loc main_arg5) :=
  (B5_of m ρ c main_arg5 (by decide)).trans <| (B4_of_ne m ρ c main_arg5 (by decide)).trans <| (B3_of m ρ c main_arg5 (by decide)).trans <|
    (B2_of_ne m ρ c main_arg5 (by decide)).trans <| (B1_of m ρ c main_arg5 (by decide)).trans rfl

/-! ## The first pallas_call's entry -/

theorem E1_arg1 (c : Dev nD) : E1 m ρ c main_arg1 = m ((c : Thread nD τ).loc main_arg1) :=
  (B1_of m ρ c main_arg1 (by decide)).trans rfl
theorem E1_arg3 (c : Dev nD) : E1 m ρ c main_arg3 = m ((c : Thread nD τ).loc main_arg3) :=
  (B1_of m ρ c main_arg3 (by decide)).trans rfl
/-- The scale row: S + E, as a 1 × 4096 array. -/
theorem E1_v1 (c : Dev nD) :
    E1 m ρ c main_v1 = shapeCast S1x4096 (addf (m ((c : Thread nD τ).loc main_arg2)) (m ((c : Thread nD τ).loc main_arg4))) shapeCasts_S4096_S1x4096 := by
  show StableHlo.after hostOps0 _ (Proc.devRef .tc main_v1) = _
  after_results
  rfl

/-! ## The second pallas_call's entry -/

/-- x as an 8192 × 4096 array. -/
theorem E3_v3 (c : Dev nD) :
    E3 m ρ c main_v3 = shapeCast S8192x4096 (m ((c : Thread nD τ).loc main_arg0)) shapeCasts_S4x2048x4096_S8192x4096 := by
  have h0 : B2 m ρ c main_arg0 = m ((c : Thread nD τ).loc main_arg0) :=
    (B2_of_ne m ρ c main_arg0 (by decide)).trans <| (B1_of m ρ c main_arg0 (by decide)).trans rfl
  show StableHlo.after hostOps1 _ (Proc.devRef .tc main_v3) = _
  after_results
  rw [← h0]
  rfl
/-- The bias as a 1 × 4096 array. -/
theorem E3_v4 (c : Dev nD) :
    E3 m ρ c main_v4 = shapeCast S1x4096 (m ((c : Thread nD τ).loc main_arg5)) shapeCasts_S4096_S1x4096 := by
  have h5 : B2 m ρ c main_arg5 = m ((c : Thread nD τ).loc main_arg5) :=
    (B2_of_ne m ρ c main_arg5 (by decide)).trans <| (B1_of m ρ c main_arg5 (by decide)).trans rfl
  show StableHlo.after hostOps1 _ (Proc.devRef .tc main_v4) = _
  after_results
  rw [← h5]
  rfl
/-- The weight: what the first pallas_call's write-backs leave in its output array. -/
theorem E3_v2 (c : Dev nD) : E3 m ρ c main_v2 = (dat0 (E1 m ρ) c).arrAt 3 cfg0.N :=
  (B3_of m ρ c main_v2 (by decide)).trans (B2_arr m ρ c 3)

/-! ## The return -/

/-- The result: what the second pallas_call's write-backs leave in its output array, as a 4 × 2048 × 4096 array. -/
theorem B5_v6 (c : Dev nD) :
    B5 m ρ c main_v6 = shapeCast S4x2048x4096 ((dat1 (E3 m ρ) c).arrAt 3 cfg1.N) shapeCasts_S8192x4096_S4x2048x4096 := by
  show StableHlo.after hostOps2 _ (Proc.devRef .tc main_v6) = _
  after_results
  rw [← B4_arr m ρ c 3]
  rfl

end Cert.Kernel.Fr

end
-- ==== Proof.KI.W0.lean ====
/-
  The first kernel (the weight matrix): the two conditions its body branches on, decided at every grid point; where its
  output window is left untouched; the memory it is handed.

  The grid is 2 × 4 × 8, its last axis the eight blocks of 512 columns an entry of the weight is summed over. The body
  clears its accumulator at the first block (last coordinate 0), adds one block's product at every point, and stores the
  accumulator into the output block at the last block (last coordinate 7). Points are visited in row-major order, so a
  point's last coordinate is its number modulo 8.
-/
import proofs.«140466_j11252814316068_2_alg».proof.Proof.Gen.KernelIdeal.Launch
import proofs.«140466_j11252814316068_2_alg».proof.Proof.Gen.KernelIdeal.Skeleton
import proofs.«140466_j11252814316068_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the kernel's region is entered: everything about the region is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched window's
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first block of columns": the last grid coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last block of columns": the last grid coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are untouched -/

/-- The three input windows are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last block the body stores nothing into the output window, and the block is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last block the body stores the output window whole. -/
theorem liveAt0_3 : ∀ t : Fin cfg0.N, cond0_1 (grid0.coords t) → cfg0.idle 3 (grid0.coords t) = false := by decide +kernel

/-! ## The memory the body is handed -/

/-- One staging buffer of the output window, through which its contents are stated (which one does not matter). -/
abbrev VO0_3 : View sig .tc .vmem S2048x1024 .bf16 := (Memref.whole cc0_stg3_0 : Memref sig .tc .vmem S2048x1024 .bf16).view
/-- Each window's current staging buffer at point `t`, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole buffer of the kernel's own, carried from point to point. -/
abbrev scM0 : Memref sig .tc .vmem S2048x1024 .f32 := Memref.whole cc0_scratch0
abbrev VS0 : View sig .tc .vmem S2048x1024 .f32 := scM0.view

/-- The other kernel's staging buffers and accumulator, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body besides the windows: the accumulator at some contents, the other kernel's buffers, and
    the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Fr

end
-- ==== Proof.KI.W0A.lean ====
/-
  The first kernel's body at a point of the FIRST column block: the accumulator, whatever it held, is cleared and then
  receives the block's product; the output window is left as it was.
-/
import proofs.«140466_j11252814316068_2_alg».proof.Proof.KI.W0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator (last first), with the proof that from whole staging buffers — the
    inputs at their contents, the output window at contents handed back untouched, the accumulator at anything — the body
    runs to the continuation holding the inputs as they were and the accumulator with those pieces written. -/
noncomputable def kernelRun0_A (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1x512 .f32) (x2 : Vec F S512x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__w_kernel i arg3 harg3 arg4 harg4 arg5 harg5 arg6 harg6 arg7 harg7) K } := by
  refine ⟨[], ?_, fun xi3 E K => ?run⟩
  case run =>
    simp only [cc0__w_kernel_eq_skeleton]; unfold cc0__w_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.W0B.lean ====
/-
  The first kernel's body at a point of a MIDDLE column block: the accumulator, at what the point before left, receives
  the block's product; the output window is left as it was.
-/
import proofs.«140466_j11252814316068_2_alg».proof.Proof.KI.W0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator, with the proof that from whole staging buffers — the inputs at
    their contents, the output window at contents handed back untouched, the accumulator at `xs0` — the body runs to the
    continuation holding the inputs as they were and the accumulator with those pieces written. -/
noncomputable def kernelRun0_B (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1x512 .f32) (x2 : Vec F S512x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__w_kernel i arg3 harg3 arg4 harg4 arg5 harg5 arg6 harg6 arg7 harg7) K } := by
  refine ⟨[], ?_, fun xi3 E K => ?run⟩
  case run =>
    simp only [cc0__w_kernel_eq_skeleton]; unfold cc0__w_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.W0C.lean ====
/-
  The first kernel's body at a point of the LAST column block: the accumulator, at what the point before left, receives
  the block's product, and the finished accumulator is stored into the output window.
-/
import proofs.«140466_j11252814316068_2_alg».proof.Proof.KI.W0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output window and in the accumulator, with the proof that from whole staging
    buffers — the inputs at their contents, the output window at anything, the accumulator at `xs0` — the body runs to the
    continuation holding the inputs as they were and the two buffers with their pieces written. -/
noncomputable def kernelRun0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1x512 .f32) (x2 : Vec F S512x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__w_kernel i arg3 harg3 arg4 harg4 arg5 harg5 arg6 harg6 arg7 harg7) K } := by
  refine ⟨?_, ?_, fun E K => ?run⟩
  case run =>
    simp only [cc0__w_kernel_eq_skeleton]; unfold cc0__w_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.W0F.lean ====
/-
  The first kernel, point by point: what its accumulator holds after each grid point and what it stores into the output
  window at the last column block; the invariant that carries the accumulator from one point to the next; the proof data
  of the pipeline; and the body's obligation at every point.

  After a point of the first column block the accumulator holds that block's product alone (it was cleared first);
  after any later point it holds what the point before left plus the point's product; at the last block the output
  window receives the accumulator. Before the first point, and again after the last, the accumulator's contents are not
  named.
-/
import proofs.«140466_j11252814316068_2_alg».proof.Proof.KI.W0A
import proofs.«140466_j11252814316068_2_alg».proof.Proof.KI.W0B
import proofs.«140466_j11252814316068_2_alg».proof.Proof.KI.W0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first block's stores cover the accumulator. -/
theorem scover0_A (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512 .f32) (x2 : Vec F S512x1024 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y
/-- What the first block leaves in the accumulator. -/
def sout0_A (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512 .f32) (x2 : Vec F S512x1024 .f32) : Vec F S2048x1024 .f32 :=
  VS0.read (Elt F) (VS0.writes (Elt F) VS0.junk (kernelRun0_A c i arg3 harg3 arg4 harg4 arg5 harg5 arg6 harg6 arg7 harg7 hc0 hc1 x0 x1 x2).2.1)

/-- A middle block's stores cover the accumulator. -/
theorem scover0_B (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512 .f32) (x2 : Vec F S512x1024 .f32) (xs0 : Vec F S2048x1024 .f32) (y : S2048x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S2048x1024.size (by sl_kernel_rfl) y
/-- What a middle block leaves in the accumulator. -/
def sout0_B (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512 .f32) (x2 : Vec F S512x1024 .f32) (xs0 : Vec F S2048x1024 .f32) : Vec F S2048x1024 .f32 :=
  VS0.read (Elt F) (VS0.writes (Elt F) VS0.junk (kernelRun0_B c i arg3 harg3 arg4 harg4 arg5 harg5 arg6 harg6 arg7 harg7 hc0 hc1 x0 x1 x2 xs0).2.1)

/-- The last block's stores cover the accumulator, -/
theorem scover0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S2048x1024.size (by sl_kernel_rfl) y
/-- and the output window. -/
theorem cover0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S2048x1024.size (by sl_kernel_rfl) y
/-- What the last block leaves in the accumulator, -/
def sout0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) : Vec F S2048x1024 .f32 :=
  VS0.read (Elt F) (VS0.writes (Elt F) VS0.junk (kernelRun0_C c i arg3 harg3 arg4 harg4 arg5 harg5 arg6 harg6 arg7 harg7 hc0 hc1 x0 x1 x2 xs0).2.1)
/-- and in the output window. -/
def out0_C (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) : Vec F S2048x1024 .bf16 :=
  VO0_3.read (Elt F) (VO0_3.writes (Elt F) VO0_3.junk (kernelRun0_C c i arg3 harg3 arg4 harg4 arg5 harg5 arg6 harg6 arg7 harg7 hc0 hc1 x0 x1 x2 xs0).1)

/-! ## The accumulator and the output, point by point -/

/-- THE ACCUMULATOR after the body at position `n`: the first block's contents at a point ≡ 0 (mod 8), otherwise the
    point's case run over what position `n - 1` left. -/
def acc0 (c : Dev nD) : (n : ℕ) → n < cfg0.N → Vec F S2048x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 8 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 8 = 7 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (acc0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (acc0 c n (Nat.lt_of_succ_lt hn))

/-- At a point of the first block. -/
theorem acc0_A (c : Dev nD) (t : Fin cfg0.N) (h0 : t.val % 8 = 0) (h1 : ¬t.val % 8 = 7) :
    acc0 V c t.val t.isLt = sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans rfl

/-- At a point of a middle block. -/
theorem acc0_B (c : Dev nD) (t : Fin cfg0.N) (h0 : ¬t.val % 8 = 0) (h1 : ¬t.val % 8 = 7) :
    acc0 V c t.val t.isLt = sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point of the last block. -/
theorem acc0_C (c : Dev nD) (t : Fin cfg0.N) (h0 : ¬t.val % 8 = 0) (h1 : t.val % 8 = 7) :
    acc0 V c t.val t.isLt = sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- THE OUTPUT WINDOW's staging buffer after the body at point `t`: at the last block the stored accumulator; elsewhere the
    window is untouched and not written back, and this value is never consulted. -/
def outW0 (c : Dev nD) (t : Fin cfg0.N) : Vec F S2048x1024 .bf16 :=
  if h1 : t.val % 8 = 7 then
    out0_C c (grid0.coords t) (ms0_0 t) (hs0_0 t) (ms0_1 t) (hs0_1 t) (ms0_2 t) (hs0_2 t) (ms0_3 t) (hs0_3 t) scM0 (Memref.isWhole_whole _) (fun h => (fun h => by omega) ((hcond0_0 t).mp h)) ((hcond0_1 t).mpr h1) (iblk0 V c 0 t) (iblk0 V c 1 t) (iblk0 V c 2 t) (acc0 V c (t.val - 1) (Nat.lt_of_le_of_lt (Nat.sub_le _ _) t.isLt))
  else VO0_3.read (Elt F) VO0_3.junk

theorem outW0_C (c : Dev nD) (t : Fin cfg0.N) (h0 : ¬t.val % 8 = 0) (h1 : t.val % 8 = 7) :
    outW0 V c t = out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (acc0 V c (t.val - 1) (Nat.lt_of_le_of_lt (Nat.sub_le _ _) t.isLt)) :=
  (dif_pos h1).trans rfl

/-! ## The invariant -/

/-- Before position `n`: at the start what the region hands the body (the accumulator at anything); afterwards the
    accumulator at what the point before left, the other kernel's buffers, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The arrays as the region finds them; after the body each input's buffer at its block, the output's at `outW0`; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outW0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outW0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's number modulo 8 says which case it is in;
    the invariant hands the body the accumulator at what the point before left (at anything at a first block, where it is
    cleared before it is read) and takes it back at this point's contents; the output window is stored at the last block
    and handed back untouched elsewhere; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [acc0_A V c t h0 h1]
    unfold sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [acc0_C V c t h0 h1, outW0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [acc0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region hands the body is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives that back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.KernelIdeal.Fr

end
-- ==== Proof.PayloadW.lean ====
import proofs.«140466_j11252814316068_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The first kernel's initial store: the accumulator block is all zeros. -/
theorem payW_zero (y : S2048x1024.Idx) : k0_pay1 (F := Ideal) y = 0 := by
  unfold k0_pay1
  simp only [shapeCast_self]
  exact Ideal.ofBits_zero_f32

/-! The first kernel's contraction: the operands' indices at an output index, coordinate by coordinate. -/

/-- The left operand's row is the output's row. -/
theorem lhsW_0 (i : S2048x1024.Idx) (c : dot_S2048x512_S512x1024_S2048x1024_1_0_0_1_n_n.contr.Idx) :
    (dot_S2048x512_S512x1024_S2048x1024_1_0_0_1_n_n.lhsIdx i c 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
/-- The left operand's column is the contraction coordinate. -/
theorem lhsW_1 (i : S2048x1024.Idx) (c : dot_S2048x512_S512x1024_S2048x1024_1_0_0_1_n_n.contr.Idx) :
    (dot_S2048x512_S512x1024_S2048x1024_1_0_0_1_n_n.lhsIdx i c 1).val = (c ⟨0, by decide⟩).val :=
  dot_S2048x512_S512x1024_S2048x1024_1_0_0_1_n_n.lhsIdx_val_of_single rfl i c
/-- The right operand's row is the contraction coordinate. -/
theorem rhsW_0 (i : S2048x1024.Idx) (c : dot_S2048x512_S512x1024_S2048x1024_1_0_0_1_n_n.contr.Idx) :
    (dot_S2048x512_S512x1024_S2048x1024_1_0_0_1_n_n.rhsIdx i c 0).val = (c ⟨0, by decide⟩).val :=
  dot_S2048x512_S512x1024_S2048x1024_1_0_0_1_n_n.rhsIdx_val_of_single rfl i c
/-- The right operand's column is the output's column. -/
theorem rhsW_1 (i : S2048x1024.Idx) (c : dot_S2048x512_S512x1024_S2048x1024_1_0_0_1_n_n.contr.Idx) :
    (dot_S2048x512_S512x1024_S2048x1024_1_0_0_1_n_n.rhsIdx i c 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The left operand's index of the first kernel's contraction, at output `(p, q)` and contraction coordinate `k`. -/
theorem lhsW (p : Fin 2048) (q : Fin 1024) (k : Fin 512) :
    dot_S2048x512_S512x1024_S2048x1024_1_0_0_1_n_n.lhsIdx (ix2 p q) ((contrEquiv1 dot_S2048x512_S512x1024_S2048x1024_1_0_0_1_n_n 512 rfl rfl).symm k) = ix2 p k := by
  have hk := contrEquiv1_symm_val dot_S2048x512_S512x1024_S2048x1024_1_0_0_1_n_n 512 rfl rfl k
  refine funext fun a => Fin.ext ?_
  match a with
  | ⟨0, _⟩ => exact lhsW_0 _ _
  | ⟨1, _⟩ => exact (lhsW_1 _ _).trans hk

/-- The right operand's index of the same contraction. -/
theorem rhsW (p : Fin 2048) (q : Fin 1024) (k : Fin 512) :
    dot_S2048x512_S512x1024_S2048x1024_1_0_0_1_n_n.rhsIdx (ix2 p q) ((contrEquiv1 dot_S2048x512_S512x1024_S2048x1024_1_0_0_1_n_n 512 rfl rfl).symm k) = ix2 k q := by
  have hk := contrEquiv1_symm_val dot_S2048x512_S512x1024_S2048x1024_1_0_0_1_n_n 512 rfl rfl k
  refine funext fun a => Fin.ext ?_
  match a with
  | ⟨0, _⟩ => exact (rhsW_0 _ _).trans hk
  | ⟨1, _⟩ => exact rhsW_1 _ _

/-- One accumulation step of the first kernel at an index: the accumulator plus the sum over the block's 512
    columns of (U·(S+E)) times Vt. -/
theorem payW_acc (v3 : Vec Ideal S2048x512 .f32) (v4 : Vec Ideal S1x512 .f32) (v9 : Vec Ideal S512x1024 .f32)
    (v11 : Vec Ideal S2048x1024 .f32) (p : Fin 2048) (q : Fin 1024) :
    k0_pay2 v3 v4 v9 v11 (ix2 p q)
      = v11 (ix2 p q) + ∑ j : Fin 512, (v3 (ix2 p j) * v4 (ix2 (0 : Fin 1) j)) * v9 (ix2 j q) := by
  unfold k0_pay2
  simp only [shapeCast_self]
  refine (addf_apply _ _ _).trans (congrArg (v11 (ix2 p q) + ·) ?_)
  refine (Ideal.matmul_constant_zero_apply dot_S2048x512_S512x1024_S2048x1024_1_0_0_1_n_n none _ _ (ix2 p q)).trans ?_
  rw [← Equiv.sum_comp (contrEquiv1 dot_S2048x512_S512x1024_S2048x1024_1_0_0_1_n_n 512 rfl rfl).symm]
  refine Finset.sum_congr rfl fun k _ => ?_
  rw [lhsW, rhsW]
  show (v3 (ix2 p k) * broadcastTo S2048x512 v4 broadcasts_S1x512_S2048x512 (ix2 p k)) * v9 (ix2 k q) = _
  rw [broadcastTo_1b_ab_apply]

/-- The first kernel's final store: the accumulator, unchanged by the change of format. -/
theorem payW_out (v20 : Vec Ideal S2048x1024 .f32) (y : S2048x1024.Idx) : k0_pay3 v20 y = v20 y := rfl

end Cert.KernelIdeal.Pay

end
-- ==== Proof.KI.W0V.lean ====
/-
  The first kernel's stores read back as values: what each case of the body leaves in the accumulator, and at the last
  column block in the output window, is the body's arithmetic applied to what the case was handed.
-/
import proofs.«140466_j11252814316068_2_alg».proof.Proof.KI.W0F
import proofs.«140466_j11252814316068_2_alg».proof.Proof.PayloadW

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-block rectangle. -/
theorem hz0 : (![0, 0] : Fin 2 → Nat) = fun _ => 0 := funext fun a => by fin_cases a <;> rfl

/-- A middle block: the accumulator, handed over at `xs0`, receives the block's product. The one covering store's
    payload, whose loads read the whole buffers. -/
theorem sout0_B_eq (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512 .f32) (x2 : Vec F S512x1024 .f32) (xs0 : Vec F S2048x1024 .f32) :
    sout0_B c i arg3 harg3 arg4 harg4 arg5 harg5 arg6 harg6 arg7 harg7 hc0 hc1 x0 x1 x2 xs0 = k0_pay2 x0 x1 x2 xs0 := by
  unfold sout0_B
  rw [View.read_writes_eq_canon _ _ _ (scover0_B c i arg3 harg3 arg4 harg4 arg5 harg5 arg6 harg6 arg7 harg7 hc0 hc1 x0 x1 x2 xs0)]
  unfold kernelRun0_B
  dsimp only
  rw [View.canon_unit_zero hz0]
  simp only [View.readAt_eq_ld, harg3.read_unread, harg4.read_unread, harg5.read_unread, harg7.read_unread,
    View.ld_unit_zero (S := S2048x512) hz0, View.ld_unit_zero (S := S1x512) hz0, View.ld_unit_zero (S := S512x1024) hz0,
    View.ld_unit_zero (S := S2048x1024) hz0]

/-- The last block: the accumulator, handed over at `xs0`, receives the block's product as at a middle block. -/
theorem sout0_C_eq (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) :
    sout0_C c i arg3 harg3 arg4 harg4 arg5 harg5 arg6 harg6 arg7 harg7 hc0 hc1 x0 x1 x2 xs0 = k0_pay2 x0 x1 x2 xs0 := by
  unfold sout0_C
  rw [View.read_writes_eq_canon _ _ _ (scover0_C c i arg3 harg3 arg4 harg4 arg5 harg5 arg6 harg6 arg7 harg7 hc0 hc1 x0 x1 x2 xs0)]
  unfold kernelRun0_C
  dsimp only
  sl_unfold_words
  rw [View.canon_unit_zero hz0]
  simp only [View.readAt_eq_ld, harg3.read_unread, harg4.read_unread, harg5.read_unread, harg7.read_unread,
    View.ld_unit_zero (S := S2048x512) hz0, View.ld_unit_zero (S := S1x512) hz0, View.ld_unit_zero (S := S512x1024) hz0,
    View.ld_unit_zero (S := S2048x1024) hz0]

/-- The last block: the output window receives the accumulator just stored, read back whole and changed of format. -/
theorem out0_C_eq (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512 .f32) (x2 : Vec F S512x1024 .f32) (xs0 : Vec F S2048x1024 .f32) :
    out0_C c i arg3 harg3 arg4 harg4 arg5 harg5 arg6 harg6 arg7 harg7 hc0 hc1 x0 x1 x2 xs0 = k0_pay3 (k0_pay2 x0 x1 x2 xs0) := by
  unfold out0_C
  rw [View.read_writes_eq_canon _ _ _ (cover0_C c i arg3 harg3 arg4 harg4 arg5 harg5 arg6 harg6 arg7 harg7 hc0 hc1 x0 x1 x2 xs0)]
  unfold kernelRun0_C
  dsimp only
  sl_unfold_words
  rw [View.canon_unit_zero hz0, View.readCov_unit_zero (S := S2048x1024) _ hz0]
  simp only [View.readAt_eq_ld, harg3.read_unread, harg4.read_unread, harg5.read_unread, harg7.read_unread,
    View.ld_unit_zero (S := S2048x512) hz0, View.ld_unit_zero (S := S1x512) hz0, View.ld_unit_zero (S := S512x1024) hz0,
    View.ld_unit_zero (S := S2048x1024) hz0]

/-- The first block: the accumulator is cleared, read back as the zero block, and receives the block's product. -/
theorem sout0_A_eq (c : Dev nD) (i : grid0.Coords) (arg3 : Memref sig .tc .vmem S2048x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512 .f32) (x2 : Vec F S512x1024 .f32) :
    sout0_A c i arg3 harg3 arg4 harg4 arg5 harg5 arg6 harg6 arg7 harg7 hc0 hc1 x0 x1 x2 = k0_pay2 x0 x1 x2 (k0_pay1 (F := F)) := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S2048x1024) hz0, View.readCov_unit_zero (S := S2048x1024) _ hz0]
  simp only [View.readAt_eq_ld, harg3.read_unread, harg4.read_unread, harg5.read_unread,
    View.ld_unit_zero (S := S2048x512) hz0, View.ld_unit_zero (S := S1x512) hz0, View.ld_unit_zero (S := S512x1024) hz0]

end Cert.KernelIdeal.Fr

end
-- ==== Proof.KI.W0Blk.lean ====
/-
  The first kernel's windows, located: at grid point number `t` (row-major over 2 × 4 × 8) the row block is `t / 32`,
  the column block of the output is `(t / 8) % 4`, and the block of the summed columns is `t % 8`. So the block of `U`
  the body reads holds rows `2048·(t/32) + p` and columns `512·(t%8) + j`; the block of the scale row columns
  `512·(t%8) + j`; the block of `Vt` rows `512·(t%8) + j` and columns `1024·((t/8)%4) + q`; and the output block rows
  `2048·(t/32) + p`, columns `1024·((t/8)%4) + q`.
-/
import proofs.«140466_j11252814316068_2_alg».proof.Proof.KI.W0F
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- A number as one of 4096 indices (numbers below 4096 are themselves). -/
abbrev f4096 (n : ℕ) : Fin 4096 := ⟨n % 4096, Nat.mod_lt _ (by decide)⟩

variable (V : (c : Dev nD) → (b : Ref sig .tc) → Buf (Elt F) ((c : Thread nD τ).loc b))

/-- The windows' block indices at every point, decided over the grid. -/
theorem idx0_0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx0_1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx0_2 : ∀ t : Fin cfg0.N, win0_2.index t 0 = t.val % 8 ∧ win0_2.index t 1 = t.val / 8 % 4 :=
  (by decide +kernel : ∀ t : Fin grid0.N, win0_2.index t 0 = t.val % 8 ∧ win0_2.index t 1 = t.val / 8 % 4)
theorem idx0_3 : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- The block of `U` at point `t`. -/
theorem blk0_0 (c : Dev nD) (t : Fin cfg0.N) (p : Fin 2048) (j : Fin 512) :
    (iblk0 V c 0 t : Vec F S2048x512 .f32) (ix2 p j)
      = V c main_arg1 (ix2 (f4096 (t.val / 32 * 2048 + p.val)) (f4096 (t.val % 8 * 512 + j.val))) := by
  have hN : t.val < 64 := lt_of_lt_of_eq t.isLt (show cfg0.N = 64 from N_0)
  unfold iblk0
  rw [View.read_apply]
  show V c main_arg1 _ = V c main_arg1 _
  refine congrArg _ ?_
  funext a
  apply Fin.ext
  match a with
  | ⟨0, _⟩ => show win0_0.index t 0 * 2048 + 1 * p.val = (t.val / 32 * 2048 + p.val) % 4096; rw [(idx0_0 t).1]; omega
  | ⟨1, _⟩ => show win0_0.index t 1 * 512 + 1 * j.val = (t.val % 8 * 512 + j.val) % 4096; rw [(idx0_0 t).2]; omega

/-- The block of the scale row at point `t`. -/
theorem blk0_1 (c : Dev nD) (t : Fin cfg0.N) (j : Fin 512) :
    (iblk0 V c 1 t : Vec F S1x512 .f32) (ix2 (0 : Fin 1) j)
      = V c main_v1 (ix2 (0 : Fin 1) (f4096 (t.val % 8 * 512 + j.val))) := by
  have hN : t.val < 64 := lt_of_lt_of_eq t.isLt (show cfg0.N = 64 from N_0)
  unfold iblk0
  rw [View.read_apply]
  show V c main_v1 _ = V c main_v1 _
  refine congrArg _ ?_
  funext a
  apply Fin.ext
  match a with
  | ⟨0, _⟩ => show win0_1.index t 0 * 1 + 1 * 0 = 0; rw [(idx0_1 t).1]
  | ⟨1, _⟩ => show win0_1.index t 1 * 512 + 1 * j.val = (t.val % 8 * 512 + j.val) % 4096; rw [(idx0_1 t).2]; omega

/-- The block of `Vt` at point `t`. -/
theorem blk0_2 (c : Dev nD) (t : Fin cfg0.N) (j : Fin 512) (q : Fin 1024) :
    (iblk0 V c 2 t : Vec F S512x1024 .f32) (ix2 j q)
      = V c main_arg3 (ix2 (f4096 (t.val % 8 * 512 + j.val)) (f4096 (t.val / 8 % 4 * 1024 + q.val))) := by
  have hN : t.val < 64 := lt_of_lt_of_eq t.isLt (show cfg0.N = 64 from N_0)
  unfold iblk0
  rw [View.read_apply]
  show V c main_arg3 _ = V c main_arg3 _
  refine congrArg _ ?_
  funext a
  apply Fin.ext
  match a with
  | ⟨0, _⟩ => show win0_2.index t 0 * 512 + 1 * j.val = (t.val % 8 * 512 + j.val) % 4096; rw [(idx0_2 t).1]; omega
  | ⟨1, _⟩ => show win0_2.index t 1 * 1024 + 1 * q.val = (t.val / 8 % 4 * 1024 + q.val) % 4096; rw [(idx0_2 t).2]; omega

end Cert.KernelIdeal.Fr

end
-- ==== Proof.Spec.lean ====
/-
  The result both programs compute, as one function of the argument arrays over the extended reals.

  The weight is  w[o, n] = Σ_k (U[o, k] · (S[k] + E[k])) · Vt[k, n]   (k over the 4096 columns of U),
  the result is  y[b, t, o] = Σ_k x[b, t, k] · w[o, k] + bias[o].

  The kernel reaches each of the two sums eight columns-blocks of 512 at a time: `blockSum f n` is the sum of `f` over
  the first `n` blocks, which starts at zero, grows by one block per step, and after eight steps is the whole sum.
  Only commutativity and associativity of the extended reals' addition are used, so nothing here needs finiteness.
-/
import Idealize.ShloMosaic.PureOps.Ideal
import Idealize.ShloMosaic.Lib.ValueIdx

noncomputable section

open scoped BigOperators

namespace Cert.Spec

open Idealize.ShloMosaic Idealize.ShloMosaic.ValueIdx

/-- The weight matrix at row `o`, column `n`. -/
def wt (U : (⟨2, ![4096, 4096]⟩ : Shape).Idx → EReal) (S E : (⟨1, ![4096]⟩ : Shape).Idx → EReal)
    (Vt : (⟨2, ![4096, 4096]⟩ : Shape).Idx → EReal) (o n : Fin 4096) : EReal :=
  ∑ k : Fin 4096, (U (ix2 o k) * (S (ix1 k) + E (ix1 k))) * Vt (ix2 k n)

/-- The result at batch `b`, position `t`, output feature `o`. -/
def outAt (x : (⟨3, ![4, 2048, 4096]⟩ : Shape).Idx → EReal) (U : (⟨2, ![4096, 4096]⟩ : Shape).Idx → EReal)
    (S E : (⟨1, ![4096]⟩ : Shape).Idx → EReal) (Vt : (⟨2, ![4096, 4096]⟩ : Shape).Idx → EReal)
    (bias : (⟨1, ![4096]⟩ : Shape).Idx → EReal) (b : Fin 4) (t : Fin 2048) (o : Fin 4096) : EReal :=
  (∑ k : Fin 4096, x (ix3 b t k) * wt U S E Vt o k) + bias (ix1 o)

/-- The result array. -/
def out (x : (⟨3, ![4, 2048, 4096]⟩ : Shape).Idx → EReal) (U : (⟨2, ![4096, 4096]⟩ : Shape).Idx → EReal)
    (S E : (⟨1, ![4096]⟩ : Shape).Idx → EReal) (Vt : (⟨2, ![4096, 4096]⟩ : Shape).Idx → EReal)
    (bias : (⟨1, ![4096]⟩ : Shape).Idx → EReal) : (⟨3, ![4, 2048, 4096]⟩ : Shape).Idx → EReal :=
  fun i => outAt x U S E Vt bias (i 0) (i 1) (i 2)

/-- Column `j` of block `kb`, among the 4096 columns. -/
def kix (kb : Fin 8) (j : Fin 512) : Fin 4096 := ⟨kb.val * 512 + j.val, by omega⟩

/-- The sum of `f` over the first `n` blocks of 512 columns. -/
def blockSum (f : Fin 4096 → EReal) (n : ℕ) : EReal :=
  ∑ kb : Fin 8, if kb.val < n then ∑ j : Fin 512, f (kix kb j) else 0

theorem blockSum_zero (f : Fin 4096 → EReal) : blockSum f 0 = 0 := by
  unfold blockSum
  refine Finset.sum_eq_zero ?_
  intro kb _
  rw [if_neg (Nat.not_lt_zero _)]

theorem blockSum_succ (f : Fin 4096 → EReal) (kb : Fin 8) :
    blockSum f (kb.val + 1) = blockSum f kb.val + ∑ j : Fin 512, f (kix kb j) := by
  unfold blockSum
  -- a block index is below `kb + 1` exactly when it is below `kb` or equal to `kb`, and never both
  have h : ∀ kb' : Fin 8, (if kb'.val < kb.val + 1 then ∑ j : Fin 512, f (kix kb' j) else 0)
      = (if kb'.val < kb.val then ∑ j : Fin 512, f (kix kb' j) else 0)
        + (if kb' = kb then ∑ j : Fin 512, f (kix kb' j) else 0) := by
    intro kb'
    by_cases h1 : kb'.val < kb.val
    · have h2 : kb' ≠ kb := by
        intro h
        rw [h] at h1
        exact lt_irrefl _ h1
      have h3 : kb'.val < kb.val + 1 := by omega
      rw [if_pos h1, if_pos h3, if_neg h2, add_zero]
    · by_cases h2 : kb' = kb
      · have h3 : kb'.val < kb.val + 1 := by
          rw [h2]
          omega
        rw [if_neg h1, if_pos h3, if_pos h2, zero_add]
      · have h3 : ¬ kb'.val < kb.val + 1 := by
          intro h
          apply h2
          apply Fin.ext
          omega
        rw [if_neg h1, if_neg h3, if_neg h2, add_zero]
  rw [Finset.sum_congr rfl (fun kb' _ => h kb'), Finset.sum_add_distrib, Finset.sum_ite_eq' Finset.univ kb,
    if_pos (Finset.mem_univ kb)]

theorem blockSum_all (f : Fin 4096 → EReal) : blockSum f 8 = ∑ k : Fin 4096, f k := by
  unfold blockSum
  have h : ∀ kb : Fin 8, (if kb.val < 8 then ∑ j : Fin 512, f (kix kb j) else 0)
      = ∑ j : Fin 512, f (kix kb j) := by
    intro kb
    rw [if_pos kb.isLt]
  rw [Finset.sum_congr rfl (fun kb _ => h kb), ← Fintype.sum_prod_type' (f := fun kb j => f (kix kb j))]
  -- the pairs (block, column in the block) are in bijection with the 4096 columns
  refine Fintype.sum_equiv (finProdFinEquiv.trans (finCongr (by norm_num))) _ _ ?_
  rintro ⟨kb, j⟩
  refine congrArg f (Fin.ext ?_)
  simp only [kix, Equiv.trans_apply, finProdFinEquiv_apply_val, finCongr_apply, Fin.coe_cast]
  omega

end Cert.Spec

end
-- ==== Proof.KI.W0Acc.lean ====
/-
  The first kernel's accumulator, point by point, at the extended reals: after the body at grid point number `n` it holds,
  at row `p` and column `q` of its block, the sum over the first `n % 8 + 1` blocks of 512 columns of the summand of
  the weight's entry (2048·(n/32) + p, 1024·((n/8)%4) + q).
-/
import proofs.«140466_j11252814316068_2_alg».proof.Proof.KI.W0V
import proofs.«140466_j11252814316068_2_alg».proof.Proof.KI.W0Blk
import proofs.«140466_j11252814316068_2_alg».proof.Proof.PayloadW
import proofs.«140466_j11252814316068_2_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.Spec

variable (V : (c : Dev nD) → (b : Ref sig .tc) → Buf (Elt Ideal) ((c : Thread nD τ).loc b))

/-- The matrix `U`, the scale row and the matrix `Vt` as the region finds them, at their literal shapes. -/
abbrev arrU (c : Dev nD) : (⟨2, ![4096, 4096]⟩ : Shape).Idx → EReal := V c main_arg1
abbrev arrS (c : Dev nD) : (⟨2, ![1, 4096]⟩ : Shape).Idx → EReal := V c main_v1
abbrev arrVt (c : Dev nD) : (⟨2, ![4096, 4096]⟩ : Shape).Idx → EReal := V c main_arg3

/-- The summand of the weight's entry (o, n) at column k. -/
def fW (c : Dev nD) (o n : ℕ) : Fin 4096 → EReal := fun k =>
  (arrU V c (ix2 (f4096 o) k) * arrS V c (ix2 (0 : Fin 1) k)) * arrVt V c (ix2 k (f4096 n))

/-- One accumulation step at point `t`, read at `(p, q)`: the block's product is the sum of the entry's summand over the
    columns of block `t % 8`. -/
theorem step0 (c : Dev nD) (t : Fin cfg0.N) (kb : Fin 8) (hkb : kb.val = t.val % 8) (xs : Vec Ideal S2048x1024 .f32) (p : Fin 2048) (q : Fin 1024) :
    k0_pay2 (iblk0 V c 0 t) (iblk0 V c 1 t) (iblk0 V c 2 t) xs (ix2 p q)
      = xs (ix2 p q) + ∑ j : Fin 512, fW V c (t.val / 32 * 2048 + p.val) (t.val / 8 % 4 * 1024 + q.val) (kix kb j) := by
  have hN : t.val < 64 := lt_of_lt_of_eq t.isLt (show cfg0.N = 64 from N_0)
  refine (Pay.payW_acc (iblk0 V c 0 t) (iblk0 V c 1 t) (iblk0 V c 2 t) xs p q).trans ?_
  refine congrArg (xs (ix2 p q) + ·) (Finset.sum_congr rfl fun j _ => ?_)
  have hk : kix kb j = f4096 (t.val % 8 * 512 + j.val) :=
    Fin.ext (by show kb.val * 512 + j.val = (t.val % 8 * 512 + j.val) % 4096; rw [hkb]; omega)
  rw [hk]
  unfold fW
  exact congrArg₂ (· * ·) (congrArg₂ (· * ·) (blk0_0 V c t p j) (blk0_1 V c t j)) (blk0_2 V c t j q)

/-- At a point of the first block the accumulator holds the first block's sum. -/
theorem acc0_first (c : Dev nD) (t : Fin cfg0.N) (h0 : t.val % 8 = 0) (p : Fin 2048) (q : Fin 1024) :
    acc0 V c t.val t.isLt (ix2 p q)
      = blockSum (fW V c (t.val / 32 * 2048 + p.val) (t.val / 8 % 4 * 1024 + q.val)) (t.val % 8 + 1) := by
  have h1 : ¬t.val % 8 = 7 := by omega
  have e := (acc0_A V c t h0 h1).trans (sout0_A_eq c (grid0.coords t) (ms0_0 t) (hs0_0 t) (ms0_1 t) (hs0_1 t) (ms0_2 t) (hs0_2 t) (ms0_3 t) (hs0_3 t) scM0 (Memref.isWhole_whole _) _ _ (iblk0 V c 0 t) (iblk0 V c 1 t) (iblk0 V c 2 t))
  refine (congrFun e (ix2 p q)).trans ?_
  refine (step0 V c t ⟨t.val % 8, Nat.mod_lt _ (by decide)⟩ rfl _ p q).trans ?_
  refine Eq.trans ?_ (blockSum_succ _ ⟨t.val % 8, Nat.mod_lt _ (by decide)⟩).symm
  refine congrArg (· + _) ?_
  exact (Pay.payW_zero (ix2 p q)).trans (((congrArg (blockSum _) h0).trans (blockSum_zero _)).symm)

/-- At a point of a later block the accumulator holds one more block's sum than the point before left. -/
theorem acc0_later (c : Dev nD) (t : Fin cfg0.N) (h0 : ¬t.val % 8 = 0)
    (ih : ∀ (p : Fin 2048) (q : Fin 1024),
      acc0 V c (t.val - 1) (Nat.lt_of_le_of_lt (Nat.sub_le _ _) t.isLt) (ix2 p q)
        = blockSum (fW V c ((t.val - 1) / 32 * 2048 + p.val) ((t.val - 1) / 8 % 4 * 1024 + q.val)) ((t.val - 1) % 8 + 1))
    (p : Fin 2048) (q : Fin 1024) :
    acc0 V c t.val t.isLt (ix2 p q)
      = blockSum (fW V c (t.val / 32 * 2048 + p.val) (t.val / 8 % 4 * 1024 + q.val)) (t.val % 8 + 1) := by
  have a1 : (t.val - 1) / 32 = t.val / 32 := by omega
  have a2 : (t.val - 1) / 8 % 4 = t.val / 8 % 4 := by omega
  have a3 : (t.val - 1) % 8 + 1 = t.val % 8 := by omega
  have e : acc0 V c t.val t.isLt
      = k0_pay2 (iblk0 V c 0 t) (iblk0 V c 1 t) (iblk0 V c 2 t) (acc0 V c (t.val - 1) (Nat.lt_of_le_of_lt (Nat.sub_le _ _) t.isLt)) := by
    by_cases h1 : t.val % 8 = 7
    · exact (acc0_C V c t h0 h1).trans (sout0_C_eq c (grid0.coords t) (ms0_0 t) (hs0_0 t) (ms0_1 t) (hs0_1 t) (ms0_2 t) (hs0_2 t) (ms0_3 t) (hs0_3 t) scM0 (Memref.isWhole_whole _) _ _ (iblk0 V c 0 t) (iblk0 V c 1 t) (iblk0 V c 2 t) _)
    · exact (acc0_B V c t h0 h1).trans (sout0_B_eq c (grid0.coords t) (ms0_0 t) (hs0_0 t) (ms0_1 t) (hs0_1 t) (ms0_2 t) (hs0_2 t) (ms0_3 t) (hs0_3 t) scM0 (Memref.isWhole_whole _) _ _ (iblk0 V c 0 t) (iblk0 V c 1 t) (iblk0 V c 2 t) _)
  refine (congrFun e (ix2 p q)).trans ?_
  refine (step0 V c t ⟨t.val % 8, Nat.mod_lt _ (by decide)⟩ rfl _ p q).trans ?_
  refine Eq.trans ?_ (blockSum_succ _ ⟨t.val % 8, Nat.mod_lt _ (by decide)⟩).symm
  refine congrArg (· + _) ?_
  refine (ih p q).trans ?_
  rw [a1, a2, a3]

/-- THE ACCUMULATOR after the body at point `n`, at `(p, q)`: the sum of the entry's summand over the first `n % 8 + 1`
    blocks of columns. By induction on the point. -/
theorem acc0_eq (c : Dev nD) : ∀ (n : ℕ) (h : n < cfg0.N) (p : Fin 2048) (q : Fin 1024),
    acc0 V c n h (ix2 p q) = blockSum (fW V c (n / 32 * 2048 + p.val) (n / 8 % 4 * 1024 + q.val)) (n % 8 + 1) := by
  intro n
  induction n with
  | zero => exact fun h p q => acc0_first V c ⟨0, h⟩ rfl p q
  | succ n ih =>
    intro h p q
    by_cases h0 : (n + 1) % 8 = 0
    · exact acc0_first V c ⟨n + 1, h⟩ h0 p q
    · exact acc0_later V c ⟨n + 1, h⟩ h0 (fun p q => ih (Nat.lt_of_succ_lt h) p q) p q

end Cert.KernelIdeal.Fr

end
-- ==== Proof.KI.W0Fin.lean ====
/-
  The first kernel's result array. At a point of the last column block the output block receives the finished
  accumulator, which by then is the sum over all eight blocks: entry (p, q) of the block at row block `t / 32` and column
  block `(t / 8) % 4` is entry (2048·(t/32) + p, 1024·((t/8)%4) + q) of the weight. Every entry of the 4096 × 4096 array
  lies in exactly such a block, namely the one written back at point ((o / 2048)·4 + n / 1024)·8 + 7. So after the run the
  array holds the weight: the sum over all 4096 columns.
-/
import proofs.«140466_j11252814316068_2_alg».proof.Proof.KI.W0Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (V : (c : Dev nD) → (b : Ref sig .tc) → Buf (Elt Ideal) ((c : Thread nD τ).loc b))

/-- The weight as the eight blocks' sum, entry by entry. -/
def GW' (c : Dev nD) : (⟨2, ![4096, 4096]⟩ : Shape).Idx → EReal := fun i => blockSum (fW V c (i 0).val (i 1).val) 8
/-- The same as contents of the first kernel's result buffer. -/
abbrev GW (c : Dev nD) : Buf (Elt Ideal) ((c : Thread nD τ).loc main_v2) := GW' V c

/-- The write-back at a point of the last column block writes the weight's block. -/
theorem flushed_eq0 (c : Dev nD) (t : Fin cfg0.N) (hf : (cfg0.win 3).flush t = true) :
    (dat0 V c).flushed 3 t = ((cfg0.win 3).blk t).view.read (Elt Ideal) (GW V c) := by
  have h7 : t.val % 8 = 7 := (flush0_3 t).mp hf
  have h0 : ¬ t.val % 8 = 0 := by omega
  have hN : t.val < 64 := lt_of_lt_of_eq t.isLt (show cfg0.N = 64 from N_0)
  have e : acc0 V c t.val t.isLt = k0_pay2 (iblk0 V c 0 t) (iblk0 V c 1 t) (iblk0 V c 2 t) (acc0 V c (t.val - 1) (Nat.lt_of_le_of_lt (Nat.sub_le _ _) t.isLt)) :=
    (acc0_C V c t h0 h7).trans (sout0_C_eq ..)
  show (cfg0.win 3).cut (grid0.coords t) ((dat0 V c).after 3 t) = _
  rw [after0_3, outW0_C V c t h0 h7, out0_C_eq]
  funext y
  rw [View.read_apply]
  obtain ⟨p, q, rfl⟩ : ∃ (p : Fin 2048) (q : Fin 1024), y = ix2 p q := ⟨y 0, y 1, eq_ix2 y⟩
  have ea : ((((cfg0.win 3).blk t).view.emb (ix2 p q) : (⟨2, ![4096, 4096]⟩ : Shape).Idx) 0).val = t.val / 32 * 2048 + p.val := by
    show win0_3.index t 0 * 2048 + 1 * p.val = _; rw [(idx0_3 t).1]; omega
  have eb : ((((cfg0.win 3).blk t).view.emb (ix2 p q) : (⟨2, ![4096, 4096]⟩ : Shape).Idx) 1).val = t.val / 8 % 4 * 1024 + q.val := by
    show win0_3.index t 1 * 1024 + 1 * q.val = _; rw [(idx0_3 t).2]; omega
  refine Eq.trans ?_ (congrArg₂ (fun a b => blockSum (fW V c a b) 8) ea.symm eb.symm)
  show k0_pay3 (k0_pay2 (iblk0 V c 0 t) (iblk0 V c 1 t) (iblk0 V c 2 t) (acc0 V c (t.val - 1) _)) (ix2 p q) = _
  refine (Pay.payW_out _ _).trans ?_
  refine (congrFun e (ix2 p q)).symm.trans ?_
  refine (acc0_eq V c t.val t.isLt p q).trans ?_
  rw [h7]

/-- Every entry of the array lies in the block some point of the last column block writes back. -/
theorem cover0 (c : Dev nD) (i : (⟨2, ![4096, 4096]⟩ : Shape).Idx) :
    ∃ t : Fin cfg0.N, (cfg0.win 3).flush t = true ∧ i ∈ ((cfg0.win 3).blk t).view.set := by
  have h0 : (i 0).val < 4096 := (i 0).isLt
  have h1 : (i 1).val < 4096 := (i 1).isLt
  obtain ⟨tn, htn⟩ : ∃ tn, tn = ((i 0).val / 2048 * 4 + (i 1).val / 1024) * 8 + 7 := ⟨_, rfl⟩
  have hlt : tn < cfg0.N := lt_of_lt_of_eq (by omega : tn < 64) N_0.symm
  refine ⟨⟨tn, hlt⟩, (flush0_3 ⟨tn, hlt⟩).mpr (by show tn % 8 = 7; omega), ?_⟩
  show i ∈ ((View.whole main_v2).slice (win0_3.rect ⟨tn, hlt⟩)).set
  rw [View.set_slice_whole, Rect.mem_set_unit]
  intro a
  match a with
  | ⟨0, _⟩ =>
    show win0_3.index ⟨tn, hlt⟩ 0 * 2048 ≤ (i 0).val ∧ (i 0).val < win0_3.index ⟨tn, hlt⟩ 0 * 2048 + 2048
    rw [(idx0_3 ⟨tn, hlt⟩).1]; show tn / 32 * 2048 ≤ (i 0).val ∧ (i 0).val < tn / 32 * 2048 + 2048; omega
  | ⟨1, _⟩ =>
    show win0_3.index ⟨tn, hlt⟩ 1 * 1024 ≤ (i 1).val ∧ (i 1).val < win0_3.index ⟨tn, hlt⟩ 1 * 1024 + 1024
    rw [(idx0_3 ⟨tn, hlt⟩).2]; show tn / 8 % 4 * 1024 ≤ (i 1).val ∧ (i 1).val < tn / 8 % 4 * 1024 + 1024; omega

/-- After the run the first kernel's result array holds the weight. -/
theorem final0 (c : Dev nD) : (dat0 V c).arrAt 3 cfg0.N = GW V c :=
  (dat0 V c).arrAt_eq_of_cover 3 (GW V c) (flushed_eq0 V c) (cover0 c)

/-- Entry (o, n) of the weight: the sum over all 4096 columns. -/
theorem GW_apply (c : Dev nD) (o n : Fin 4096) :
    GW' V c (ix2 o n) = ∑ k : Fin 4096,
      (arrU V c (ix2 o k) * arrS V c (ix2 (0 : Fin 1) k)) * arrVt V c (ix2 k n) := by
  unfold GW'
  rw [blockSum_all]
  have eo : f4096 o.val = o := Fin.ext (Nat.mod_eq_of_lt o.isLt)
  have en : f4096 n.val = n := Fin.ext (Nat.mod_eq_of_lt n.isLt)
  show ∑ k : Fin 4096, fW V c o.val n.val k = _
  unfold fW
  rw [eo, en]

end Cert.KernelIdeal.Fr

end
-- ==== Proof.KI.Y1.lean ====
/-
  The second kernel (the result): the two conditions its body branches on, decided at every grid point; where its
  output window is left untouched; the memory it is handed.

  The grid is 8 × 2 × 8, its last axis the eight blocks of 512 columns an entry of the result is summed over. The body
  clears its accumulator at the first block (last coordinate 0), adds one block's product at every point, and at the last
  block (last coordinate 7) stores the accumulator plus the bias row into the output block. Points are visited in row-major
  order, so a point's last coordinate is its number modulo 8.
-/
import proofs.«140466_j11252814316068_2_alg».proof.Proof.Gen.KernelIdeal.Launch
import proofs.«140466_j11252814316068_2_alg».proof.Proof.Gen.KernelIdeal.Skeleton
import proofs.«140466_j11252814316068_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the kernel's region is entered: everything about the region is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched window's
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of columns": the last grid coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of columns": the last grid coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are untouched -/

/-- No input window is marked untouched: each is handed back holding its block at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the body stores nothing into the output window, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last block the body stores the output window whole. -/
theorem liveAt1_3 : ∀ t : Fin cfg1.N, cond1_1 (grid1.coords t) → cfg1.idle 3 (grid1.coords t) = false := by decide +kernel

/-! ## The memory the body is handed -/

/-- One staging buffer of the output window, through which its contents are stated (which one does not matter). -/
abbrev VO1_3 : View sig .tc .vmem S1024x2048 .f32 := (Memref.whole cc1_stg3_0 : Memref sig .tc .vmem S1024x2048 .f32).view
/-- Each window's current staging buffer at point `t`, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole buffer of the kernel's own, carried from point to point. -/
abbrev scM1 : Memref sig .tc .vmem S1024x2048 .f32 := Memref.whole cc1_scratch0
abbrev VS1 : View sig .tc .vmem S1024x2048 .f32 := scM1.view

/-- The other kernel's staging buffers and accumulator, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the region hands the body besides the windows: the accumulator at some contents, the other kernel's buffers, and
    the generator register at some state. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq]; simp only [scM1, owns_whole]
  -- the accumulator is the last of the ten buffers listed: bring it to the front
  refine BI.equiv_iff.mp ⟨?_, ?_⟩
  · show (_ : sProp 𝕄) ⊢ _
    iintro ⟨⟨H1, H2, H3, H4, H5, H6, H7, H8, H9, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  · show (_ : sProp 𝕄) ⊢ _
    iintro ⟨⟨HS, H1, H2, H3, H4, H5, H6, H7, H8, H9⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iexact Hg

end Cert.KernelIdeal.Fr

end
-- ==== Proof.KI.Y1A.lean ====
/-
  The second kernel's body at a point of the FIRST column block: the accumulator, whatever it held, is cleared and then
  receives the block's product; the bias row is not read and the output window is left as it was.
-/
import proofs.«140466_j11252814316068_2_alg».proof.Proof.KI.Y1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator (last first), with the proof that from whole staging buffers — the
    inputs at their contents, the output window at contents handed back untouched, the accumulator at anything — the body
    runs to the continuation holding the inputs as they were and the accumulator with those pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__y_kernel i arg3 harg3 arg4 harg4 arg5 harg5 arg6 harg6 arg7 harg7) K } := by
  refine ⟨[], ?_, fun xi3 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.Y1B.lean ====
/-
  The second kernel's body at a point of a MIDDLE column block: the accumulator, at what the point before left, receives
  the block's product; the bias row is not read and the output window is left as it was.
-/
import proofs.«140466_j11252814316068_2_alg».proof.Proof.KI.Y1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator, with the proof that from whole staging buffers — the inputs at
    their contents, the output window at contents handed back untouched, the accumulator at `xs0` — the body runs to the
    continuation holding the inputs as they were and the accumulator with those pieces written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__y_kernel i arg3 harg3 arg4 harg4 arg5 harg5 arg6 harg6 arg7 harg7) K } := by
  refine ⟨[], ?_, fun xi3 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.Y1C.lean ====
/-
  The second kernel's body at a point of the LAST column block: the accumulator, at what the point before left, receives
  the block's product, and the finished accumulator plus the bias row is stored into the output window.
-/
import proofs.«140466_j11252814316068_2_alg».proof.Proof.KI.Y1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output window and in the accumulator, with the proof that from whole staging
    buffers — the inputs at their contents, the output window at anything, the accumulator at `xs0` — the body runs to the
    continuation holding the inputs as they were and the two buffers with their pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__y_kernel i arg3 harg3 arg4 harg4 arg5 harg5 arg6 harg6 arg7 harg7) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Y1F.lean ====
/-
  The second kernel, point by point: what its accumulator holds after each grid point and what it stores into the output
  window at the last column block; the invariant that carries the accumulator from one point to the next; the proof data
  of the pipeline; and the body's obligation at every point.

  After a point of the first column block the accumulator holds that block's product alone (it was cleared first);
  after any later point it holds what the point before left plus the point's product; at the last block the output
  window receives the accumulator plus the bias row. Before the first point, and again after the last, the accumulator's
  contents are not named.
-/
import proofs.«140466_j11252814316068_2_alg».proof.Proof.KI.Y1A
import proofs.«140466_j11252814316068_2_alg».proof.Proof.KI.Y1B
import proofs.«140466_j11252814316068_2_alg».proof.Proof.KI.Y1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first block's stores cover the accumulator. -/
theorem scover1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y
/-- What the first block leaves in the accumulator. -/
def sout1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).2.1)

/-- A middle block's stores cover the accumulator. -/
theorem scover1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y
/-- What a middle block leaves in the accumulator. -/
def sout1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).2.1)

/-- The last block's stores cover the accumulator, -/
theorem scover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
/-- and the output window. -/
theorem cover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
/-- What the last block leaves in the accumulator, -/
def sout1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)
/-- and in the output window. -/
def out1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-! ## The accumulator and the output, point by point -/

/-- THE ACCUMULATOR after the body at position `n`: the first block's contents at a point ≡ 0 (mod 8), otherwise the
    point's case run over what position `n - 1` left. -/
def acc1 (c : Dev nD) : (n : ℕ) → n < cfg1.N → Vec F S1024x2048 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 8 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 8 = 7 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (acc1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (acc1 c n (Nat.lt_of_succ_lt hn))

/-- At a point of the first block. -/
theorem acc1_A (c : Dev nD) (t : Fin cfg1.N) (h0 : t.val % 8 = 0) (h1 : ¬t.val % 8 = 7) :
    acc1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

/-- At a point of a middle block. -/
theorem acc1_B (c : Dev nD) (t : Fin cfg1.N) (h0 : ¬t.val % 8 = 0) (h1 : ¬t.val % 8 = 7) :
    acc1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point of the last block. -/
theorem acc1_C (c : Dev nD) (t : Fin cfg1.N) (h0 : ¬t.val % 8 = 0) (h1 : t.val % 8 = 7) :
    acc1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- THE OUTPUT WINDOW's staging buffer after the body at point `t`: at the last block the stored accumulator plus the bias row; elsewhere the
    window is untouched and not written back, and this value is never consulted. -/
def outW1 (c : Dev nD) (t : Fin cfg1.N) : Vec F S1024x2048 .f32 :=
  if h1 : t.val % 8 = 7 then
    out1_C c (grid1.coords t) (ms1_0 t) (hs1_0 t) (ms1_1 t) (hs1_1 t) (ms1_2 t) (hs1_2 t) (ms1_3 t) (hs1_3 t) scM1 (Memref.isWhole_whole _) (fun h => (fun h => by omega) ((hcond1_0 t).mp h)) ((hcond1_1 t).mpr h1) (iblk1 V c 0 t) (iblk1 V c 1 t) (iblk1 V c 2 t) (acc1 V c (t.val - 1) (Nat.lt_of_le_of_lt (Nat.sub_le _ _) t.isLt))
  else VO1_3.read (Elt F) VO1_3.junk

theorem outW1_C (c : Dev nD) (t : Fin cfg1.N) (h0 : ¬t.val % 8 = 0) (h1 : t.val % 8 = 7) :
    outW1 V c t = out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) :=
  (dif_pos h1).trans rfl

/-! ## The invariant -/

/-- Before position `n`: at the start what the region hands the body (the accumulator at anything); afterwards the
    accumulator at what the point before left, the other kernel's buffers, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The arrays as the region finds them; after the body each input's buffer at its block, the output's at `outW1`; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outW1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outW1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's number modulo 8 says which case it is in;
    the invariant hands the body the accumulator at what the point before left (at anything at a first block, where it is
    cleared before it is read) and takes it back at this point's contents; the output window is stored at the last block
    and handed back untouched elsewhere; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [acc1_A V c t h0 h1]
    unfold sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_C V c t h0 h1, outW1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [acc1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, Hoth⟩, Hg⟩
  isplitl [HS0 Hoth]
  · isplitl [HS0]
    · iexists _; iexact HS0
    iexact Hoth
  iexact Hg

end Cert.KernelIdeal.Fr

end
-- ==== Proof.PayloadY.lean ====
import proofs.«140466_j11252814316068_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The second kernel's initial store: the accumulator block is all zeros. -/
theorem payY_zero (y : S1024x2048.Idx) : k1_pay1 (F := Ideal) y = 0 := by
  unfold k1_pay1
  simp only [shapeCast_self]
  exact Ideal.ofBits_zero_f32

/-! The second kernel's contraction (both operands contract their second axis): the operands' indices at an output
index, coordinate by coordinate. -/

/-- The left operand's row is the output's row. -/
theorem lhsY_0 (i : S1024x2048.Idx) (c : dot_S1024x512_S2048x512_S1024x2048_1_1_0_0_n_n.contr.Idx) :
    (dot_S1024x512_S2048x512_S1024x2048_1_1_0_0_n_n.lhsIdx i c 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- The left operand's column is the contraction coordinate. -/
theorem lhsY_1 (i : S1024x2048.Idx) (c : dot_S1024x512_S2048x512_S1024x2048_1_1_0_0_n_n.contr.Idx) :
    (dot_S1024x512_S2048x512_S1024x2048_1_1_0_0_n_n.lhsIdx i c 1).val = (c ⟨0, by decide⟩).val :=
  dot_S1024x512_S2048x512_S1024x2048_1_1_0_0_n_n.lhsIdx_val_of_single rfl i c
/-- The right operand's row is the output's column. -/
theorem rhsY_0 (i : S1024x2048.Idx) (c : dot_S1024x512_S2048x512_S1024x2048_1_1_0_0_n_n.contr.Idx) :
    (dot_S1024x512_S2048x512_S1024x2048_1_1_0_0_n_n.rhsIdx i c 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- The right operand's column is the contraction coordinate. -/
theorem rhsY_1 (i : S1024x2048.Idx) (c : dot_S1024x512_S2048x512_S1024x2048_1_1_0_0_n_n.contr.Idx) :
    (dot_S1024x512_S2048x512_S1024x2048_1_1_0_0_n_n.rhsIdx i c 1).val = (c ⟨0, by decide⟩).val :=
  dot_S1024x512_S2048x512_S1024x2048_1_1_0_0_n_n.rhsIdx_val_of_single rfl i c

/-- The left operand's index of the second kernel's contraction, at output `(p, q)` and contraction coordinate `k`. -/
theorem lhsY (p : Fin 1024) (q : Fin 2048) (k : Fin 512) :
    dot_S1024x512_S2048x512_S1024x2048_1_1_0_0_n_n.lhsIdx (ix2 p q) ((contrEquiv1 dot_S1024x512_S2048x512_S1024x2048_1_1_0_0_n_n 512 rfl rfl).symm k) = ix2 p k := by
  have hk := contrEquiv1_symm_val dot_S1024x512_S2048x512_S1024x2048_1_1_0_0_n_n 512 rfl rfl k
  refine funext fun a => Fin.ext ?_
  match a with
  | ⟨0, _⟩ => exact lhsY_0 _ _
  | ⟨1, _⟩ => exact (lhsY_1 _ _).trans hk

/-- The right operand's index of the same contraction: row `q`, column `k`. -/
theorem rhsY (p : Fin 1024) (q : Fin 2048) (k : Fin 512) :
    dot_S1024x512_S2048x512_S1024x2048_1_1_0_0_n_n.rhsIdx (ix2 p q) ((contrEquiv1 dot_S1024x512_S2048x512_S1024x2048_1_1_0_0_n_n 512 rfl rfl).symm k) = ix2 q k := by
  have hk := contrEquiv1_symm_val dot_S1024x512_S2048x512_S1024x2048_1_1_0_0_n_n 512 rfl rfl k
  refine funext fun a => Fin.ext ?_
  match a with
  | ⟨0, _⟩ => exact rhsY_0 _ _
  | ⟨1, _⟩ => exact (rhsY_1 _ _).trans hk

/-- One accumulation step of the second kernel at an index: the accumulator plus the sum over the block's 512
    columns of x times w, both read along their rows. -/
theorem payY_acc (v3 : Vec Ideal S1024x512 .f32) (v6 : Vec Ideal S2048x512 .bf16) (v8 : Vec Ideal S1024x2048 .f32)
    (p : Fin 1024) (q : Fin 2048) :
    k1_pay2 v3 v6 v8 (ix2 p q) = v8 (ix2 p q) + ∑ j : Fin 512, v3 (ix2 p j) * v6 (ix2 q j) := by
  unfold k1_pay2
  simp only [shapeCast_self]
  refine (addf_apply _ _ _).trans (congrArg (v8 (ix2 p q) + ·) ?_)
  refine (Ideal.matmul_constant_zero_apply (φ₁ := .bf16) (φ₂ := .bf16) dot_S1024x512_S2048x512_S1024x2048_1_1_0_0_n_n none _ v6 (ix2 p q)).trans ?_
  rw [← Equiv.sum_comp (contrEquiv1 dot_S1024x512_S2048x512_S1024x2048_1_1_0_0_n_n 512 rfl rfl).symm]
  refine Finset.sum_congr rfl fun k _ => ?_
  rw [lhsY, rhsY]
  rfl

/-- The second kernel's final store: the accumulator plus the bias row. -/
theorem payY_out (v17 : Vec Ideal S1024x2048 .f32) (v18 : Vec Ideal S1x2048 .f32) (p : Fin 1024) (q : Fin 2048) :
    k1_pay3 v17 v18 (ix2 p q) = v17 (ix2 p q) + v18 (ix2 (0 : Fin 1) q) := by
  unfold k1_pay3
  simp only [shapeCast_self]
  refine (addf_apply _ _ _).trans (congrArg (v17 (ix2 p q) + ·) ?_)
  exact broadcastTo_1b_ab_apply v18 broadcasts_S1x2048_S1024x2048 p q

end Cert.KernelIdeal.Pay

end
-- ==== Proof.KI.Y1V.lean ====
/-
  The second kernel's stores read back as values: what each case of the body leaves in the accumulator, and at the last
  column block in the output window, is the body's arithmetic applied to what the case was handed.
-/
import proofs.«140466_j11252814316068_2_alg».proof.Proof.KI.Y1F
import proofs.«140466_j11252814316068_2_alg».proof.Proof.PayloadY

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-block rectangle. -/
theorem hz1 : (![0, 0] : Fin 2 → Nat) = fun _ => 0 := funext fun a => by fin_cases a <;> rfl

/-- A middle block: the accumulator, handed over at `xs0`, receives the block's product. The one covering store's
    payload, whose loads read the whole buffers. -/
theorem sout1_B_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero hz1]
  simp only [View.readAt_eq_ld, harg3.read_unread, harg4.read_unread, harg5.read_unread, harg7.read_unread,
    View.ld_unit_zero (S := S1024x512) hz1, View.ld_unit_zero (S := S2048x512) hz1, View.ld_unit_zero (S := S1x2048) hz1,
    View.ld_unit_zero (S := S1024x2048) hz1]

/-- The last block: the accumulator, handed over at `xs0`, receives the block's product as at a middle block. -/
theorem sout1_C_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz1]
  simp only [View.readAt_eq_ld, harg3.read_unread, harg4.read_unread, harg5.read_unread, harg7.read_unread,
    View.ld_unit_zero (S := S1024x512) hz1, View.ld_unit_zero (S := S2048x512) hz1, View.ld_unit_zero (S := S1x2048) hz1,
    View.ld_unit_zero (S := S1024x2048) hz1]

/-- The last block: the output window receives the accumulator just stored, read back whole, plus the bias row. -/
theorem out1_C_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) :
    out1_C c i arg3 harg3 arg4 harg4 arg5 harg5 arg6 harg6 arg7 harg7 hc0 hc1 x0 x1 x2 xs0 = k1_pay3 (k1_pay2 x0 x1 xs0) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero hz1, View.readCov_unit_zero (S := S1024x2048) _ hz1]
  simp only [View.readAt_eq_ld, harg3.read_unread, harg4.read_unread, harg5.read_unread, harg7.read_unread,
    View.ld_unit_zero (S := S1024x512) hz1, View.ld_unit_zero (S := S2048x512) hz1, View.ld_unit_zero (S := S1x2048) hz1,
    View.ld_unit_zero (S := S1024x2048) hz1]

/-- The first block: the accumulator is cleared, read back as the zero block, and receives the block's product. -/
theorem sout1_A_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x2048) hz1, View.readCov_unit_zero (S := S1024x2048) _ hz1]
  simp only [View.readAt_eq_ld, harg3.read_unread, harg4.read_unread, harg5.read_unread,
    View.ld_unit_zero (S := S1024x512) hz1, View.ld_unit_zero (S := S2048x512) hz1, View.ld_unit_zero (S := S1x2048) hz1]

end Cert.KernelIdeal.Fr

end
-- ==== Proof.KI.Y1Blk.lean ====
/-
  The second kernel's windows, located: at grid point number `t` (row-major over 8 × 2 × 8) the row block of `x` is
  `t / 16`, the block of output features is `(t / 8) % 2`, and the block of the summed columns is `t % 8`. So the block
  of `x` the body reads holds rows `1024·(t/16) + p` and columns `512·(t%8) + j`; the block of the weight rows
  `2048·((t/8)%2) + q` and columns `512·(t%8) + j`; the block of the bias row columns `2048·((t/8)%2) + q`; and the
  output block rows `1024·(t/16) + p`, columns `2048·((t/8)%2) + q`.
-/
import proofs.«140466_j11252814316068_2_alg».proof.Proof.KI.Y1F
import proofs.«140466_j11252814316068_2_alg».proof.Proof.KI.W0Blk
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-- A number as one of 8192 indices (numbers below 8192 are themselves). -/
abbrev f8192 (n : ℕ) : Fin 8192 := ⟨n % 8192, Nat.mod_lt _ (by decide)⟩

variable (V : (c : Dev nD) → (b : Ref sig .tc) → Buf (Elt F) ((c : Thread nD τ).loc b))

/-- The windows' block indices at every point, decided over the grid. -/
theorem idx1_0 : ∀ t : Fin cfg1.N, win1_0.index t 0 = t.val / 16 ∧ win1_0.index t 1 = t.val % 8 :=
  (by decide +kernel : ∀ t : Fin grid1.N, win1_0.index t 0 = t.val / 16 ∧ win1_0.index t 1 = t.val % 8)
theorem idx1_1 : ∀ t : Fin cfg1.N, win1_1.index t 0 = t.val / 8 % 2 ∧ win1_1.index t 1 = t.val % 8 :=
  (by decide +kernel : ∀ t : Fin grid1.N, win1_1.index t 0 = t.val / 8 % 2 ∧ win1_1.index t 1 = t.val % 8)
theorem idx1_2 : ∀ t : Fin cfg1.N, win1_2.index t 0 = 0 ∧ win1_2.index t 1 = t.val / 8 % 2 :=
  (by decide +kernel : ∀ t : Fin grid1.N, win1_2.index t 0 = 0 ∧ win1_2.index t 1 = t.val / 8 % 2)
theorem idx1_3 : ∀ t : Fin cfg1.N, win1_3.index t 0 = t.val / 16 ∧ win1_3.index t 1 = t.val / 8 % 2 :=
  (by decide +kernel : ∀ t : Fin grid1.N, win1_3.index t 0 = t.val / 16 ∧ win1_3.index t 1 = t.val / 8 % 2)

/-- The block of `x` at point `t`. -/
theorem blk1_0 (c : Dev nD) (t : Fin cfg1.N) (p : Fin 1024) (j : Fin 512) :
    (iblk1 V c 0 t : Vec F S1024x512 .f32) (ix2 p j)
      = V c main_v3 (ix2 (f8192 (t.val / 16 * 1024 + p.val)) (f4096 (t.val % 8 * 512 + j.val))) := by
  have hN : t.val < 128 := lt_of_lt_of_eq t.isLt (show cfg1.N = 128 from N_1)
  unfold iblk1
  rw [View.read_apply]
  show V c main_v3 _ = V c main_v3 _
  refine congrArg _ ?_
  funext a
  apply Fin.ext
  match a with
  | ⟨0, _⟩ => show win1_0.index t 0 * 1024 + 1 * p.val = (t.val / 16 * 1024 + p.val) % 8192; rw [(idx1_0 t).1]; omega
  | ⟨1, _⟩ => show win1_0.index t 1 * 512 + 1 * j.val = (t.val % 8 * 512 + j.val) % 4096; rw [(idx1_0 t).2]; omega

/-- The block of the weight at point `t`. -/
theorem blk1_1 (c : Dev nD) (t : Fin cfg1.N) (q : Fin 2048) (j : Fin 512) :
    (iblk1 V c 1 t : Vec F S2048x512 .bf16) (ix2 q j)
      = V c main_v2 (ix2 (f4096 (t.val / 8 % 2 * 2048 + q.val)) (f4096 (t.val % 8 * 512 + j.val))) := by
  have hN : t.val < 128 := lt_of_lt_of_eq t.isLt (show cfg1.N = 128 from N_1)
  unfold iblk1
  rw [View.read_apply]
  show V c main_v2 _ = V c main_v2 _
  refine congrArg _ ?_
  funext a
  apply Fin.ext
  match a with
  | ⟨0, _⟩ => show win1_1.index t 0 * 2048 + 1 * q.val = (t.val / 8 % 2 * 2048 + q.val) % 4096; rw [(idx1_1 t).1]; omega
  | ⟨1, _⟩ => show win1_1.index t 1 * 512 + 1 * j.val = (t.val % 8 * 512 + j.val) % 4096; rw [(idx1_1 t).2]; omega

/-- The block of the bias row at point `t`. -/
theorem blk1_2 (c : Dev nD) (t : Fin cfg1.N) (q : Fin 2048) :
    (iblk1 V c 2 t : Vec F S1x2048 .f32) (ix2 (0 : Fin 1) q)
      = V c main_v4 (ix2 (0 : Fin 1) (f4096 (t.val / 8 % 2 * 2048 + q.val))) := by
  have hN : t.val < 128 := lt_of_lt_of_eq t.isLt (show cfg1.N = 128 from N_1)
  unfold iblk1
  rw [View.read_apply]
  show V c main_v4 _ = V c main_v4 _
  refine congrArg _ ?_
  funext a
  apply Fin.ext
  match a with
  | ⟨0, _⟩ => show win1_2.index t 0 * 1 + 1 * 0 = 0; rw [(idx1_2 t).1]
  | ⟨1, _⟩ => show win1_2.index t 1 * 2048 + 1 * q.val = (t.val / 8 % 2 * 2048 + q.val) % 4096; rw [(idx1_2 t).2]; omega

end Cert.KernelIdeal.Fr

end
-- ==== Proof.KI.Y1Acc.lean ====
/-
  The second kernel's accumulator, point by point, at the extended reals: after the body at grid point number `n` it holds,
  at row `p` and column `q` of its block, the sum over the first `n % 8 + 1` blocks of 512 columns of the summand of
  the product's entry (1024·(n/16) + p, 2048·((n/8)%2) + q).
-/
import proofs.«140466_j11252814316068_2_alg».proof.Proof.KI.Y1V
import proofs.«140466_j11252814316068_2_alg».proof.Proof.KI.Y1Blk
import proofs.«140466_j11252814316068_2_alg».proof.Proof.PayloadY
import proofs.«140466_j11252814316068_2_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.Spec

variable (V : (c : Dev nD) → (b : Ref sig .tc) → Buf (Elt Ideal) ((c : Thread nD τ).loc b))

/-- The rows of `x` and the weight as the region finds them, at their literal shapes. -/
abbrev arrX (c : Dev nD) : (⟨2, ![8192, 4096]⟩ : Shape).Idx → EReal := V c main_v3
abbrev arrW (c : Dev nD) : (⟨2, ![4096, 4096]⟩ : Shape).Idx → EReal := V c main_v2

/-- The summand of the product's entry (r, o) at column k. -/
def fY (c : Dev nD) (r o : ℕ) : Fin 4096 → EReal := fun k =>
  arrX V c (ix2 (f8192 r) k) * arrW V c (ix2 (f4096 o) k)

/-- One accumulation step at point `t`, read at `(p, q)`: the block's product is the sum of the entry's summand over the
    columns of block `t % 8`. -/
theorem step1 (c : Dev nD) (t : Fin cfg1.N) (kb : Fin 8) (hkb : kb.val = t.val % 8) (xs : Vec Ideal S1024x2048 .f32) (p : Fin 1024) (q : Fin 2048) :
    k1_pay2 (iblk1 V c 0 t) (iblk1 V c 1 t) xs (ix2 p q)
      = xs (ix2 p q) + ∑ j : Fin 512, fY V c (t.val / 16 * 1024 + p.val) (t.val / 8 % 2 * 2048 + q.val) (kix kb j) := by
  have hN : t.val < 128 := lt_of_lt_of_eq t.isLt (show cfg1.N = 128 from N_1)
  refine (Pay.payY_acc (iblk1 V c 0 t) (iblk1 V c 1 t) xs p q).trans ?_
  refine congrArg (xs (ix2 p q) + ·) (Finset.sum_congr rfl fun j _ => ?_)
  have hk : kix kb j = f4096 (t.val % 8 * 512 + j.val) :=
    Fin.ext (by show kb.val * 512 + j.val = (t.val % 8 * 512 + j.val) % 4096; rw [hkb]; omega)
  rw [hk]
  unfold fY
  exact congrArg₂ (· * ·) (blk1_0 V c t p j) (blk1_1 V c t q j)

/-- At a point of the first block the accumulator holds the first block's sum. -/
theorem acc1_first (c : Dev nD) (t : Fin cfg1.N) (h0 : t.val % 8 = 0) (p : Fin 1024) (q : Fin 2048) :
    acc1 V c t.val t.isLt (ix2 p q)
      = blockSum (fY V c (t.val / 16 * 1024 + p.val) (t.val / 8 % 2 * 2048 + q.val)) (t.val % 8 + 1) := by
  have h1 : ¬t.val % 8 = 7 := by omega
  have e := (acc1_A V c t h0 h1).trans (sout1_A_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t))
  refine (congrFun e (ix2 p q)).trans ?_
  refine (step1 V c t ⟨t.val % 8, Nat.mod_lt _ (by decide)⟩ rfl _ p q).trans ?_
  refine Eq.trans ?_ (blockSum_succ _ ⟨t.val % 8, Nat.mod_lt _ (by decide)⟩).symm
  refine congrArg (· + _) ?_
  exact (Pay.payY_zero (ix2 p q)).trans (((congrArg (blockSum _) h0).trans (blockSum_zero _)).symm)

/-- At a point of a later block the accumulator holds one more block's sum than the point before left. -/
theorem acc1_later (c : Dev nD) (t : Fin cfg1.N) (h0 : ¬t.val % 8 = 0)
    (ih : ∀ (p : Fin 1024) (q : Fin 2048),
      acc1 V c (t.val - 1) (Nat.lt_of_le_of_lt (Nat.sub_le _ _) t.isLt) (ix2 p q)
        = blockSum (fY V c ((t.val - 1) / 16 * 1024 + p.val) ((t.val - 1) / 8 % 2 * 2048 + q.val)) ((t.val - 1) % 8 + 1))
    (p : Fin 1024) (q : Fin 2048) :
    acc1 V c t.val t.isLt (ix2 p q)
      = blockSum (fY V c (t.val / 16 * 1024 + p.val) (t.val / 8 % 2 * 2048 + q.val)) (t.val % 8 + 1) := by
  have a1 : (t.val - 1) / 16 = t.val / 16 := by omega
  have a2 : (t.val - 1) / 8 % 2 = t.val / 8 % 2 := by omega
  have a3 : (t.val - 1) % 8 + 1 = t.val % 8 := by omega
  have e : acc1 V c t.val t.isLt
      = k1_pay2 (iblk1 V c 0 t) (iblk1 V c 1 t) (acc1 V c (t.val - 1) (Nat.lt_of_le_of_lt (Nat.sub_le _ _) t.isLt)) := by
    by_cases h1 : t.val % 8 = 7
    · exact (acc1_C V c t h0 h1).trans (sout1_C_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) _)
    · exact (acc1_B V c t h0 h1).trans (sout1_B_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) _)
  refine (congrFun e (ix2 p q)).trans ?_
  refine (step1 V c t ⟨t.val % 8, Nat.mod_lt _ (by decide)⟩ rfl _ p q).trans ?_
  refine Eq.trans ?_ (blockSum_succ _ ⟨t.val % 8, Nat.mod_lt _ (by decide)⟩).symm
  refine congrArg (· + _) ?_
  refine (ih p q).trans ?_
  rw [a1, a2, a3]

/-- THE ACCUMULATOR after the body at point `n`, at `(p, q)`: the sum of the entry's summand over the first `n % 8 + 1`
    blocks of columns. By induction on the point. -/
theorem acc1_eq (c : Dev nD) : ∀ (n : ℕ) (h : n < cfg1.N) (p : Fin 1024) (q : Fin 2048),
    acc1 V c n h (ix2 p q) = blockSum (fY V c (n / 16 * 1024 + p.val) (n / 8 % 2 * 2048 + q.val)) (n % 8 + 1) := by
  intro n
  induction n with
  | zero => exact fun h p q => acc1_first V c ⟨0, h⟩ rfl p q
  | succ n ih =>
    intro h p q
    by_cases h0 : (n + 1) % 8 = 0
    · exact acc1_first V c ⟨n + 1, h⟩ h0 p q
    · exact acc1_later V c ⟨n + 1, h⟩ h0 (fun p q => ih (Nat.lt_of_succ_lt h) p q) p q

end Cert.KernelIdeal.Fr

end
-- ==== Proof.KI.Y1Fin.lean ====
/-
  The second kernel's result array. At a point of the last column block the output block receives the finished
  accumulator plus the bias row: entry (p, q) of the block at row block `t / 16` and feature block `(t / 8) % 2` is entry
  (1024·(t/16) + p, 2048·((t/8)%2) + q) of the result, the sum over all eight blocks of x·w plus the bias at that
  feature. Every entry of the 8192 × 4096 array lies in exactly such a block, the one written back at point
  ((r / 1024)·2 + o / 2048)·8 + 7. So after the run the array holds x·wᵀ + bias, the sums over all 4096 columns.
-/
import proofs.«140466_j11252814316068_2_alg».proof.Proof.KI.Y1Acc
import proofs.«140466_j11252814316068_2_alg».proof.Proof.PayloadY

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (V : (c : Dev nD) → (b : Ref sig .tc) → Buf (Elt Ideal) ((c : Thread nD τ).loc b))

/-- The bias row as the second kernel finds it. -/
abbrev arrB (c : Dev nD) : (⟨2, ![1, 4096]⟩ : Shape).Idx → EReal := V c main_v4

/-- The result as the eight blocks' sum plus the bias, entry by entry. -/
def GY' (c : Dev nD) : (⟨2, ![8192, 4096]⟩ : Shape).Idx → EReal := fun i =>
  blockSum (fY V c (i 0).val (i 1).val) 8 + arrB V c (ix2 (0 : Fin 1) (f4096 (i 1).val))
/-- The same as contents of the second kernel's result buffer. -/
abbrev GY (c : Dev nD) : Buf (Elt Ideal) ((c : Thread nD τ).loc main_v5) := GY' V c

/-- The write-back at a point of the last column block writes the result's block. -/
theorem flushed_eq1 (c : Dev nD) (t : Fin cfg1.N) (hf : (cfg1.win 3).flush t = true) :
    (dat1 V c).flushed 3 t = ((cfg1.win 3).blk t).view.read (Elt Ideal) (GY V c) := by
  have h7 : t.val % 8 = 7 := (flush1_3 t).mp hf
  have h0 : ¬ t.val % 8 = 0 := by omega
  have hN : t.val < 128 := lt_of_lt_of_eq t.isLt (show cfg1.N = 128 from N_1)
  have e : acc1 V c t.val t.isLt = k1_pay2 (iblk1 V c 0 t) (iblk1 V c 1 t) (acc1 V c (t.val - 1) (Nat.lt_of_le_of_lt (Nat.sub_le _ _) t.isLt)) :=
    (acc1_C V c t h0 h7).trans (sout1_C_eq ..)
  show (cfg1.win 3).cut (grid1.coords t) ((dat1 V c).after 3 t) = _
  rw [after1_3, outW1_C V c t h0 h7, out1_C_eq]
  funext y
  rw [View.read_apply]
  obtain ⟨p, q, rfl⟩ : ∃ (p : Fin 1024) (q : Fin 2048), y = ix2 p q := ⟨y 0, y 1, eq_ix2 y⟩
  have ea : ((((cfg1.win 3).blk t).view.emb (ix2 p q) : (⟨2, ![8192, 4096]⟩ : Shape).Idx) 0).val = t.val / 16 * 1024 + p.val := by
    show win1_3.index t 0 * 1024 + 1 * p.val = _; rw [(idx1_3 t).1]; omega
  have eb : ((((cfg1.win 3).blk t).view.emb (ix2 p q) : (⟨2, ![8192, 4096]⟩ : Shape).Idx) 1).val = t.val / 8 % 2 * 2048 + q.val := by
    show win1_3.index t 1 * 2048 + 1 * q.val = _; rw [(idx1_3 t).2]; omega
  refine Eq.trans ?_ (congrArg₂ (fun a b => blockSum (fY V c a b) 8 + arrB V c (ix2 (0 : Fin 1) (f4096 b))) ea.symm eb.symm)
  show k1_pay3 (k1_pay2 (iblk1 V c 0 t) (iblk1 V c 1 t) (acc1 V c (t.val - 1) _)) (iblk1 V c 2 t) (ix2 p q) = _
  refine (Pay.payY_out _ _ p q).trans ?_
  rw [blk1_2 V c t q]
  refine congrArg (· + _) ?_
  refine (congrFun e (ix2 p q)).symm.trans ?_
  refine (acc1_eq V c t.val t.isLt p q).trans ?_
  rw [h7]

/-- Every entry of the array lies in the block some point of the last column block writes back. -/
theorem cover1 (c : Dev nD) (i : (⟨2, ![8192, 4096]⟩ : Shape).Idx) :
    ∃ t : Fin cfg1.N, (cfg1.win 3).flush t = true ∧ i ∈ ((cfg1.win 3).blk t).view.set := by
  have h0 : (i 0).val < 8192 := (i 0).isLt
  have h1 : (i 1).val < 4096 := (i 1).isLt
  obtain ⟨tn, htn⟩ : ∃ tn, tn = ((i 0).val / 1024 * 2 + (i 1).val / 2048) * 8 + 7 := ⟨_, rfl⟩
  have hlt : tn < cfg1.N := lt_of_lt_of_eq (by omega : tn < 128) N_1.symm
  refine ⟨⟨tn, hlt⟩, (flush1_3 ⟨tn, hlt⟩).mpr (by show tn % 8 = 7; omega), ?_⟩
  show i ∈ ((View.whole main_v5).slice (win1_3.rect ⟨tn, hlt⟩)).set
  rw [View.set_slice_whole, Rect.mem_set_unit]
  intro a
  match a with
  | ⟨0, _⟩ =>
    show win1_3.index ⟨tn, hlt⟩ 0 * 1024 ≤ (i 0).val ∧ (i 0).val < win1_3.index ⟨tn, hlt⟩ 0 * 1024 + 1024
    rw [(idx1_3 ⟨tn, hlt⟩).1]; show tn / 16 * 1024 ≤ (i 0).val ∧ (i 0).val < tn / 16 * 1024 + 1024; omega
  | ⟨1, _⟩ =>
    show win1_3.index ⟨tn, hlt⟩ 1 * 2048 ≤ (i 1).val ∧ (i 1).val < win1_3.index ⟨tn, hlt⟩ 1 * 2048 + 2048
    rw [(idx1_3 ⟨tn, hlt⟩).2]; show tn / 8 % 2 * 2048 ≤ (i 1).val ∧ (i 1).val < tn / 8 % 2 * 2048 + 2048; omega

/-- After the run the second kernel's result array holds x·wᵀ + bias. -/
theorem final1 (c : Dev nD) : (dat1 V c).arrAt 3 cfg1.N = GY V c :=
  (dat1 V c).arrAt_eq_of_cover 3 (GY V c) (flushed_eq1 V c) (cover1 c)

/-- Entry (r, o) of the result: the sum over all 4096 columns, plus the bias. -/
theorem GY_apply (c : Dev nD) (r : Fin 8192) (o : Fin 4096) :
    GY' V c (ix2 r o) = (∑ k : Fin 4096,
      arrX V c (ix2 r k) * arrW V c (ix2 o k))
        + arrB V c (ix2 (0 : Fin 1) o) := by
  unfold GY'
  rw [blockSum_all]
  have er : f8192 r.val = r := Fin.ext (Nat.mod_eq_of_lt r.isLt)
  have eo : f4096 o.val = o := Fin.ext (Nat.mod_eq_of_lt o.isLt)
  show (∑ k : Fin 4096, fY V c r.val o.val k) + arrB V c (ix2 (0 : Fin 1) (f4096 o.val)) = _
  unfold fY
  rw [er, eo]

end Cert.KernelIdeal.Fr

end
-- ==== Proof.KI.Run.lean ====
/-
  The whole program: the two pallas_calls among three stretches of host operations, run from the launch to the return.

  The buffers' contents at each boundary are a fold from the launch memory: a host stretch applies its operations, a
  pallas_call leaves its arrays at what its write-backs produce and every other buffer as it was. Each pallas_call is a
  segment whose invariant carries its accumulator from grid point to grid point. The run's conclusion: every weakly fair
  execution terminates, nothing faults, and every unscoped buffer ends at the last boundary's contents.
-/
import proofs.«140466_j11252814316068_2_alg».proof.Proof.KI.W0F
import proofs.«140466_j11252814316068_2_alg».proof.Proof.KI.Y1F
import proofs.«140466_j11252814316068_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch (the scale row): the first pallas_call's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first pallas_call: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the two reshapes): the second pallas_call's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the second pallas_call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host stretch (the result's reshape): at the return. -/
abbrev B5 : Dev nD → Valuation τ sig (Elt F) := fun c => StableHlo.after hostOps2 (B4 m ρ c)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed. -/
abbrev Tₙ (c : Dev nD) : sProp 𝕄 := iprop(StableHlo.held (c : Thread nD τ) (Pipeline.ucRefs τ sig) (B5 m ρ c) ∗ ∃ r, prngReg c r)

/-! ## The pallas_calls as segments -/

set_option backward.isDefEq.respectTransparency.types false in
/-- Pallas call 0 as a segment: entered with every unscoped buffer at `B1`, left with them at `B2`. Its arrays are
    split out of the unscoped buffers and put back at what the write-backs leave; the generator register and the scoped
    buffers no window stages enter the invariant (the accumulator at anything) and come back out of it (the accumulator's
    last contents forgotten); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m ρ) c)
    unfold Pipeline.ΦA
    iintro ⟨Hp, -, Hr⟩
    isplitl [Hr]; · iexact Hr
    iexact Hp
  hout c := by
    rw [Pipeline.ownSems0_none]
    refine (hout0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `B3`, left with them at `B4`. Its arrays are
    split out of the unscoped buffers and put back at what the write-backs leave; the generator register and the scoped
    buffers no window stages enter the invariant (the accumulator at anything) and come back out of it (the accumulator's
    last contents forgotten); nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every unscoped buffer ends at the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.KernelIdeal.Fr

end
-- ==== Proof.KI.Host.lean ====
/-
  The host stretches read at the buffers the assembly needs.

  No host operation and no pallas_call writes an argument array, so each ends at its launch contents. The first stretch
  leaves the scale row S + E as a 1 × 4096 array; the second reshapes x to 8192 × 4096 and the bias to 1 × 4096 and leaves
  the weight where the first pallas_call wrote it; the last reshapes the second pallas_call's result to 4 × 2048 × 4096.
-/
import proofs.«140466_j11252814316068_2_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch leaves unchanged -/

theorem B1_of (c : Dev nD) (r : Ref sig .tc) (h : r ∉ hostOps0_W) : B1 m ρ c r = B0 m ρ c r :=
  StableHlo.after_of_writes_sub hostOps0 _ hostOps0_writes h
theorem B3_of (c : Dev nD) (r : Ref sig .tc) (h : r ∉ hostOps1_W) : B3 m ρ c r = B2 m ρ c r :=
  StableHlo.after_of_writes_sub hostOps1 _ hostOps1_writes h
theorem B5_of (c : Dev nD) (r : Ref sig .tc) (h : r ∉ hostOps2_W) : B5 m ρ c r = B4 m ρ c r :=
  StableHlo.after_of_writes_sub hostOps2 _ hostOps2_writes h

/-! ## The arguments end as launched

No host operation writes one; a pallas_call reads one through an input window, whose array it leaves as it found it,
or does not touch it at all. -/

/-- `main_arg0` ends as launched. -/
theorem B5_main_arg0 (c : Dev nD) : B5 m ρ c main_arg0 = m ((c : Thread nD τ).loc main_arg0) :=
  (B5_of m ρ c main_arg0 (by decide)).trans <| (B4_of_ne m ρ c main_arg0 (by decide)).trans <| (B3_of m ρ c main_arg0 (by decide)).trans <|
    (B2_of_ne m ρ c main_arg0 (by decide)).trans <| (B1_of m ρ c main_arg0 (by decide)).trans rfl
/-- `main_arg1` ends as launched. -/
theorem B5_main_arg1 (c : Dev nD) : B5 m ρ c main_arg1 = m ((c : Thread nD τ).loc main_arg1) :=
  (B5_of m ρ c main_arg1 (by decide)).trans <| (B4_of_ne m ρ c main_arg1 (by decide)).trans <| (B3_of m ρ c main_arg1 (by decide)).trans <|
    ((B2_arr m ρ c 0).trans (((dat0 (E1 m ρ) c).arrAt_in 0 rfl _).trans (A_eq0 (E1 m ρ) c 0))).trans <| (B1_of m ρ c main_arg1 (by decide)).trans rfl
/-- `main_arg2` ends as launched. -/
theorem B5_main_arg2 (c : Dev nD) : B5 m ρ c main_arg2 = m ((c : Thread nD τ).loc main_arg2) :=
  (B5_of m ρ c main_arg2 (by decide)).trans <| (B4_of_ne m ρ c main_arg2 (by decide)).trans <| (B3_of m ρ c main_arg2 (by decide)).trans <|
    (B2_of_ne m ρ c main_arg2 (by decide)).trans <| (B1_of m ρ c main_arg2 (by decide)).trans rfl
/-- `main_arg3` ends as launched. -/
theorem B5_main_arg3 (c : Dev nD) : B5 m ρ c main_arg3 = m ((c : Thread nD τ).loc main_arg3) :=
  (B5_of m ρ c main_arg3 (by decide)).trans <| (B4_of_ne m ρ c main_arg3 (by decide)).trans <| (B3_of m ρ c main_arg3 (by decide)).trans <|
    ((B2_arr m ρ c 2).trans (((dat0 (E1 m ρ) c).arrAt_in 2 rfl _).trans (A_eq0 (E1 m ρ) c 2))).trans <| (B1_of m ρ c main_arg3 (by decide)).trans rfl
/-- `main_arg4` ends as launched. -/
theorem B5_main_arg4 (c : Dev nD) : B5 m ρ c main_arg4 = m ((c : Thread nD τ).loc main_arg4) :=
  (B5_of m ρ c main_arg4 (by decide)).trans <| (B4_of_ne m ρ c main_arg4 (by decide)).trans <| (B3_of m ρ c main_arg4 (by decide)).trans <|
    (B2_of_ne m ρ c main_arg4 (by decide)).trans <| (B1_of m ρ c main_arg4 (by decide)).trans rfl
/-- `main_arg5` ends as launched. -/
theorem B5_main_arg5 (c : Dev nD) : B5 m ρ c main_arg5 = m ((c : Thread nD τ).loc main_arg5) :=
  (B5_of m ρ c main_arg5 (by decide)).trans <| (B4_of_ne m ρ c main_arg5 (by decide)).trans <| (B3_of m ρ c main_arg5 (by decide)).trans <|
    (B2_of_ne m ρ c main_arg5 (by decide)).trans <| (B1_of m ρ c main_arg5 (by decide)).trans rfl

/-! ## The first pallas_call's entry -/

theorem E1_arg1 (c : Dev nD) : E1 m ρ c main_arg1 = m ((c : Thread nD τ).loc main_arg1) :=
  (B1_of m ρ c main_arg1 (by decide)).trans rfl
theorem E1_arg3 (c : Dev nD) : E1 m ρ c main_arg3 = m ((c : Thread nD τ).loc main_arg3) :=
  (B1_of m ρ c main_arg3 (by decide)).trans rfl
/-- The scale row: S + E, as a 1 × 4096 array. -/
theorem E1_v1 (c : Dev nD) :
    E1 m ρ c main_v1 = shapeCast S1x4096 (addf (m ((c : Thread nD τ).loc main_arg2)) (m ((c : Thread nD τ).loc main_arg4))) shapeCasts_S4096_S1x4096 := by
  show StableHlo.after hostOps0 _ (Proc.devRef .tc main_v1) = _
  after_results
  rfl

/-! ## The second pallas_call's entry -/

/-- x as an 8192 × 4096 array. -/
theorem E3_v3 (c : Dev nD) :
    E3 m ρ c main_v3 = shapeCast S8192x4096 (m ((c : Thread nD τ).loc main_arg0)) shapeCasts_S4x2048x4096_S8192x4096 := by
  have h0 : B2 m ρ c main_arg0 = m ((c : Thread nD τ).loc main_arg0) :=
    (B2_of_ne m ρ c main_arg0 (by decide)).trans <| (B1_of m ρ c main_arg0 (by decide)).trans rfl
  show StableHlo.after hostOps1 _ (Proc.devRef .tc main_v3) = _
  after_results
  rw [← h0]
  rfl
/-- The bias as a 1 × 4096 array. -/
theorem E3_v4 (c : Dev nD) :
    E3 m ρ c main_v4 = shapeCast S1x4096 (m ((c : Thread nD τ).loc main_arg5)) shapeCasts_S4096_S1x4096 := by
  have h5 : B2 m ρ c main_arg5 = m ((c : Thread nD τ).loc main_arg5) :=
    (B2_of_ne m ρ c main_arg5 (by decide)).trans <| (B1_of m ρ c main_arg5 (by decide)).trans rfl
  show StableHlo.after hostOps1 _ (Proc.devRef .tc main_v4) = _
  after_results
  rw [← h5]
  rfl
/-- The weight: what the first pallas_call's write-backs leave in its output array. -/
theorem E3_v2 (c : Dev nD) : E3 m ρ c main_v2 = (dat0 (E1 m ρ) c).arrAt 3 cfg0.N :=
  (B3_of m ρ c main_v2 (by decide)).trans (B2_arr m ρ c 3)

/-! ## The return -/

/-- The result: what the second pallas_call's write-backs leave in its output array, as a 4 × 2048 × 4096 array. -/
theorem B5_v6 (c : Dev nD) :
    B5 m ρ c main_v6 = shapeCast S4x2048x4096 ((dat1 (E3 m ρ) c).arrAt 3 cfg1.N) shapeCasts_S8192x4096_S4x2048x4096 := by
  show StableHlo.after hostOps2 _ (Proc.devRef .tc main_v6) = _
  after_results
  rw [← B4_arr m ρ c 3]
  rfl

end Cert.KernelIdeal.Fr

end
-- ==== Proof.Reshape.lean ====
import Idealize.ShloMosaic.Lib.Pipeline.Value
import Idealize.ShloMosaic.Lib.ValueIdx
import Idealize.ShloMosaic.Lib.ValueLayout

namespace Cert.Reshape

open Idealize.ShloMosaic Idealize.ShloMosaic.ValueIdx

variable {α : Type}

/-- A vector of 4096 elements viewed as one row: the row's element `k` is the vector's element `k`. -/
theorem reshape_4096_1x4096 (v : (⟨1, ![4096]⟩ : Shape).Idx → α)
    (h : (⟨1, ![4096]⟩ : Shape).ShapeCasts ⟨2, ![1, 4096]⟩) (k : Fin 4096) :
    shapeCast ⟨2, ![1, 4096]⟩ v h (ix2 (0 : Fin 1) k) = v (ix1 k) :=
  shapeCast_a_1a_apply v h 0 k

/-- A `[4, 2048, 4096]` array viewed as `[8192, 4096]`: row `r` is the array's row `r % 2048` of batch
    `r / 2048`, since both have row-major position `r * 4096 + k`. -/
theorem reshape_4x2048x4096_8192x4096 (v : (⟨3, ![4, 2048, 4096]⟩ : Shape).Idx → α)
    (h : (⟨3, ![4, 2048, 4096]⟩ : Shape).ShapeCasts ⟨2, ![8192, 4096]⟩) (r : Fin 8192) (k : Fin 4096) :
    shapeCast ⟨2, ![8192, 4096]⟩ v h (ix2 r k)
      = v (ix3 (⟨r.val / 2048, by have := r.isLt; omega⟩ : Fin 4) (⟨r.val % 2048, Nat.mod_lt _ (by decide)⟩ : Fin 2048) k) :=
  shapeCast_apply v h _ _ (by
    rw [Shape.rowMajor_val_three, Shape.rowMajor_val_two]
    show (r.val / 2048 * 2048 + r.val % 2048) * 4096 + k.val = r.val * 4096 + k.val
    rw [Nat.div_add_mod' r.val 2048])

/-- An `[8192, 4096]` array viewed as `[4, 2048, 4096]`: the element at `(b, t, o)` is the array's row
    `b * 2048 + t` at column `o`. -/
theorem reshape_8192x4096_4x2048x4096 (v : (⟨2, ![8192, 4096]⟩ : Shape).Idx → α)
    (h : (⟨2, ![8192, 4096]⟩ : Shape).ShapeCasts ⟨3, ![4, 2048, 4096]⟩) (b : Fin 4) (t : Fin 2048) (o : Fin 4096) :
    shapeCast ⟨3, ![4, 2048, 4096]⟩ v h (ix3 b t o)
      = v (ix2 (⟨b.val * 2048 + t.val, by have := b.isLt; have := t.isLt; omega⟩ : Fin 8192) o) :=
  shapeCast_apply v h _ _ (by
    rw [Shape.rowMajor_val_three, Shape.rowMajor_val_two]
    rfl)

end Cert.Reshape
-- ==== Proof.KI.Value.lean ====
/-
  The kernel's result as one function of the arguments. Unwinding the boundaries from the return: the result is the
  second kernel's array re-laid as [4, 2048, 4096]; that array is x·wᵀ + bias over all 4096 columns, of x re-laid as
  [8192, 4096], the bias as a row, and the first kernel's array w; and w is the sum over all 4096 columns of
  (U · (S + E)) · Vt, the scale row being S + E. Entry by entry that is the specification's function.
-/
import proofs.«140466_j11252814316068_2_alg».proof.Proof.KI.W0Fin
import proofs.«140466_j11252814316068_2_alg».proof.Proof.KI.Y1Fin
import proofs.«140466_j11252814316068_2_alg».proof.Proof.KI.Host
import proofs.«140466_j11252814316068_2_alg».proof.Proof.Reshape

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ) (ρ : Dev nD → PrngReg)

/-- The first kernel's array, entry (o, k): the weight of the specification. -/
theorem weight_eq (c : Dev nD) (o k : Fin 4096) :
    GW' (E1 m ρ) c (ix2 o k) = wt (m ((c : Thread nD τ).loc main_arg1)) (m ((c : Thread nD τ).loc main_arg2)) (m ((c : Thread nD τ).loc main_arg4)) (m ((c : Thread nD τ).loc main_arg3)) o k := by
  rw [GW_apply]
  unfold wt
  refine Finset.sum_congr rfl fun j _ => ?_
  dsimp only [arrU, arrS, arrVt]
  rw [E1_arg1, E1_arg3, E1_v1, Cert.Reshape.reshape_4096_1x4096]
  rfl

/-- The result buffer at the return is the specification's function of the six arguments. -/
theorem result_eq (c : Dev nD) :
    B5 m ρ c main_v6 = out (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) := by
  rw [B5_v6, final1]
  funext i
  obtain ⟨b, t, o, rfl⟩ : ∃ (b : Fin 4) (t : Fin 2048) (o : Fin 4096), i = ix3 b t o := ⟨i 0, i 1, i 2, eq_ix3 i⟩
  rw [Cert.Reshape.reshape_8192x4096_4x2048x4096]
  show GY' (E3 m ρ) c (ix2 _ o) = outAt _ _ _ _ _ _ b t o
  rw [GY_apply]
  unfold outAt
  dsimp only [arrX, arrW, arrB]
  rw [E3_v3, E3_v4, E3_v2, final0, Cert.Reshape.reshape_4096_1x4096]
  refine congrArg (· + _) (Finset.sum_congr rfl fun k _ => ?_)
  rw [Cert.Reshape.reshape_4x2048x4096_8192x4096]
  show _ * GW' (E1 m ρ) c (ix2 o k) = _
  rw [weight_eq]
  refine congrArg (· * _) (congrArg _ ?_)
  have hb := b.isLt
  have ht := t.isLt
  funext a
  apply Fin.ext
  match a with
  | ⟨0, _⟩ => show (b.val * 2048 + t.val) / 2048 = b.val; omega
  | ⟨1, _⟩ => show (b.val * 2048 + t.val) % 2048 = t.val; omega
  | ⟨2, _⟩ => rfl

end Cert.KernelIdeal.Fr

end
-- ==== Proof.RefValue.lean ====
/-
  The reference's result, read index by index.

  The reference computes v3[o, k] = U[o, k] · (S[k] + E[k]), then v4[o, n] = Σ_k v3[o, k] · Vt[k, n], which is the weight
  `Cert.Spec.wt`, then y[b, t, o] = Σ_k x[b, t, k] · v4[o, k] + bias[o], which is `Cert.Spec.outAt`.  Each stage is read at an index
  built from its coordinates, and the index functions of the broadcasts and of the two contractions are identified with those
  coordinates; no algebra is needed, the two sides are the same sums.
-/
import proofs.«140466_j11252814316068_2_alg».proof.Defs
import proofs.«140466_j11252814316068_2_alg».proof.Proof.Gen.ReferenceIdeal.Run
import proofs.«140466_j11252814316068_2_alg».proof.Proof.Gen.ReferenceIdeal.Read
import proofs.«140466_j11252814316068_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- The scaled matrix at row `o`, column `k`: `U[o, k] · (S[k] + E[k])`. -/
theorem scaled_at (U : FVec Ideal S4096x4096 .f32) (S E : FVec Ideal S4096 .f32) (o k : Fin 4096) :
    val_main_v3 (F := Ideal) U S E (ix2 o k) = U (ix2 o k) * (S (ix1 k) + E (ix1 k)) := by
  have h : idx_main_v1 (idx_main_v2 (ix2 o k : S4096x4096.Idx)) = ix1 k :=
    funext fun a => Fin.ext (by match a with | ⟨0, _⟩ => rfl)
  rw [val_main_v3_apply, val_main_v2_apply, val_main_v1_apply, val_main_v0_apply, h]
  rfl

/-- The first contraction is the weight matrix. -/
theorem weight_at (U : FVec Ideal S4096x4096 .f32) (S : FVec Ideal S4096 .f32) (Vt : FVec Ideal S4096x4096 .f32)
    (E : FVec Ideal S4096 .f32) (o n : Fin 4096) :
    val_main_v4 (F := Ideal) U S Vt E (ix2 o n) = Cert.Spec.wt U S E Vt o n := by
  rw [val_main_v4_apply]
  unfold Cert.Spec.wt
  refine Finset.sum_congr rfl fun k _ => ?_
  have hl : lidx_main_v4 (ix2 o n : S4096x4096.Idx) k = ix2 o k :=
    funext fun a => Fin.ext (by match a with | ⟨0, _⟩ => rfl | ⟨1, _⟩ => rfl)
  have hr : ridx_main_v4 (ix2 o n : S4096x4096.Idx) k = ix2 k n :=
    funext fun a => Fin.ext (by match a with | ⟨0, _⟩ => rfl | ⟨1, _⟩ => rfl)
  rw [hl, hr, scaled_at]

/-- The reference's result array is the specified one. -/
theorem result_eq (x : FVec Ideal S4x2048x4096 .f32) (U : FVec Ideal S4096x4096 .f32) (S : FVec Ideal S4096 .f32)
    (Vt : FVec Ideal S4096x4096 .f32) (E bias : FVec Ideal S4096 .f32) :
    addf (Host.dotGeneral dot_S4x2048x4096_S4096x4096_S4x2048x4096_2_1_01_0_n_n none (x) (Host.dotGeneral dot_S4096x4096_S4096x4096_S4096x4096_1_0_0_1_n_n none (mulf (U) (broadcastInDim S4096x4096 ![0, 1] bcast_S1x4096_S4096x4096_0_1 (broadcastInDim S1x4096 ![1] bcast_S4096_S1x4096_1 (addf (S) (E))))) (Vt))) (broadcastInDim S4x2048x4096 ![0, 1, 2] bcast_S1x1x4096_S4x2048x4096_0_1_2 (broadcastInDim S1x1x4096 ![2] bcast_S4096_S1x1x4096_2 (bias)))
      = Cert.Spec.out x U S E Vt bias := by
  refine (val_main_v8_eq (F := Ideal) x U S Vt E bias).trans ?_
  funext i
  obtain ⟨b, t, o, rfl⟩ : ∃ (b : Fin 4) (t : Fin 2048) (o : Fin 4096), i = ix3 b t o := ⟨i 0, i 1, i 2, eq_ix3 i⟩
  have hb : idx_main_v6 (idx_main_v7 (ix3 b t o : S4x2048x4096.Idx)) = ix1 o :=
    funext fun a => Fin.ext (by match a with | ⟨0, _⟩ => rfl)
  rw [val_main_v8_apply, val_main_v5_apply, val_main_v7_apply, val_main_v6_apply, hb]
  show (∑ k : Fin 4096, x (lidx_main_v5 (ix3 b t o) k) * val_main_v4 (F := Ideal) U S Vt E (ridx_main_v5 (ix3 b t o) k))
      + bias (ix1 o) = (∑ k : Fin 4096, x (ix3 b t k) * Cert.Spec.wt U S E Vt o k) + bias (ix1 o)
  refine congrArg (· + bias (ix1 o)) (Finset.sum_congr rfl fun k _ => ?_)
  have hl : lidx_main_v5 (ix3 b t o : S4x2048x4096.Idx) k = ix3 b t k :=
    funext fun a => Fin.ext (by match a with | ⟨0, _⟩ => rfl | ⟨1, _⟩ => rfl | ⟨2, _⟩ => rfl)
  have hr : ridx_main_v5 (ix3 b t o : S4x2048x4096.Idx) k = ix2 o k :=
    funext fun a => Fin.ext (by match a with | ⟨0, _⟩ => rfl | ⟨1, _⟩ => rfl)
  rw [hl, hr, weight_at]

end Cert.ReferenceIdeal.RefValue

end
-- ==== Proof.lean ====
/-
  The certificate's five claims.

  Both printed kernel programs — the word-level one and its idealization, the same text read at two instances — run to
  the end from any memory, fault nowhere, and leave every unscoped buffer at the last boundary's contents: the two
  pallas_calls are run grid point by grid point under an invariant that carries each one's accumulator, among the host
  stretches between them. No stretch and no pallas_call writes an argument, so the arguments end as launched: the two
  frame claims. The reference is a straight line of host operations: its frame is its run with the result dropped.
  The ideal pass rewrote nothing, so its claim is trivial.

  At the ideal instance the kernel's result buffer at the return is, entry by entry,
      y[b, t, o] = Σ_k x[b, t, k] · (Σ_j (U[o, j] · (S[j] + E[j])) · Vt[j, k]) + bias[o],
  each of the two sums reached eight blocks of 512 columns at a time — only the grouping of the extended reals'
  commutative, associative addition differs — and the reference's result is the same function of arguments that agree.
-/
import proofs.«140466_j11252814316068_2_alg».proof.Defs
import proofs.«140466_j11252814316068_2_alg».proof.Proof.Gen.Kernel
import proofs.«140466_j11252814316068_2_alg».proof.Proof.Gen.KernelIdeal
import proofs.«140466_j11252814316068_2_alg».proof.Proof.Gen.ReferenceIdeal
import proofs.«140466_j11252814316068_2_alg».proof.Proof.Gen.Pre_finite_inputs
import proofs.«140466_j11252814316068_2_alg».proof.Proof.KB.Host
import proofs.«140466_j11252814316068_2_alg».proof.Proof.KI.Value
import proofs.«140466_j11252814316068_2_alg».proof.Proof.RefValue

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun _ h c =>
    ⟨(h c _ (Cert.Kernel.Fr.mem_uc Cert.Kernel.main_arg0 (by decide))).trans (Cert.Kernel.Fr.B5_main_arg0 m ρ c),
      (h c _ (Cert.Kernel.Fr.mem_uc Cert.Kernel.main_arg1 (by decide))).trans (Cert.Kernel.Fr.B5_main_arg1 m ρ c),
      (h c _ (Cert.Kernel.Fr.mem_uc Cert.Kernel.main_arg2 (by decide))).trans (Cert.Kernel.Fr.B5_main_arg2 m ρ c),
      (h c _ (Cert.Kernel.Fr.mem_uc Cert.Kernel.main_arg3 (by decide))).trans (Cert.Kernel.Fr.B5_main_arg3 m ρ c),
      (h c _ (Cert.Kernel.Fr.mem_uc Cert.Kernel.main_arg4 (by decide))).trans (Cert.Kernel.Fr.B5_main_arg4 m ρ c),
      (h c _ (Cert.Kernel.Fr.mem_uc Cert.Kernel.main_arg5 (by decide))).trans (Cert.Kernel.Fr.B5_main_arg5 m ρ c)⟩)
    (Cert.Kernel.Fr.run_all (F := Bits) m ρ)

/-- So does its idealization. -/
theorem frame_ki : Cert.frame_KernelIdeal := fun m ρ _ =>
  (θ_run Cert.KernelIdeal.defs _ _).mono (fun _ h c =>
    ⟨(h c _ (Cert.KernelIdeal.Fr.mem_uc Cert.KernelIdeal.main_arg0 (by decide))).trans (Cert.KernelIdeal.Fr.B5_main_arg0 m ρ c),
      (h c _ (Cert.KernelIdeal.Fr.mem_uc Cert.KernelIdeal.main_arg1 (by decide))).trans (Cert.KernelIdeal.Fr.B5_main_arg1 m ρ c),
      (h c _ (Cert.KernelIdeal.Fr.mem_uc Cert.KernelIdeal.main_arg2 (by decide))).trans (Cert.KernelIdeal.Fr.B5_main_arg2 m ρ c),
      (h c _ (Cert.KernelIdeal.Fr.mem_uc Cert.KernelIdeal.main_arg3 (by decide))).trans (Cert.KernelIdeal.Fr.B5_main_arg3 m ρ c),
      (h c _ (Cert.KernelIdeal.Fr.mem_uc Cert.KernelIdeal.main_arg4 (by decide))).trans (Cert.KernelIdeal.Fr.B5_main_arg4 m ρ c),
      (h c _ (Cert.KernelIdeal.Fr.mem_uc Cert.KernelIdeal.main_arg5 (by decide))).trans (Cert.KernelIdeal.Fr.B5_main_arg5 m ρ c)⟩)
    (Cert.KernelIdeal.Fr.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result and the reference's are one function of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · exact (θ_run Cert.KernelIdeal.defs _ _).mono (fun _ h c =>
      ⟨(h c _ (Cert.KernelIdeal.Fr.mem_uc Cert.KernelIdeal.main_v6 (by decide))).trans (Cert.KernelIdeal.Fr.result_eq m ρ c),
      (h c _ (Cert.KernelIdeal.Fr.mem_uc Cert.KernelIdeal.main_arg0 (by decide))).trans (Cert.KernelIdeal.Fr.B5_main_arg0 m ρ c),
      (h c _ (Cert.KernelIdeal.Fr.mem_uc Cert.KernelIdeal.main_arg1 (by decide))).trans (Cert.KernelIdeal.Fr.B5_main_arg1 m ρ c),
      (h c _ (Cert.KernelIdeal.Fr.mem_uc Cert.KernelIdeal.main_arg2 (by decide))).trans (Cert.KernelIdeal.Fr.B5_main_arg2 m ρ c),
      (h c _ (Cert.KernelIdeal.Fr.mem_uc Cert.KernelIdeal.main_arg3 (by decide))).trans (Cert.KernelIdeal.Fr.B5_main_arg3 m ρ c),
      (h c _ (Cert.KernelIdeal.Fr.mem_uc Cert.KernelIdeal.main_arg4 (by decide))).trans (Cert.KernelIdeal.Fr.B5_main_arg4 m ρ c),
      (h c _ (Cert.KernelIdeal.Fr.mem_uc Cert.KernelIdeal.main_arg5 (by decide))).trans (Cert.KernelIdeal.Fr.B5_main_arg5 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
